-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S16384x256 : Shape := ⟨2, ![16384, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S16384x256 : S_.BroadcastsInDim S16384x256 (![] : Fin 0 → Fin S16384x256.rank)
  reducesTo_S16384x256_S_d0_1 : S16384x256.ReducesTo [0, 1] S_

variable [Facts]

def fn {F : FTy → Type} [FloatOps F] (main_arg0 : FVec F S8192x256 .f32) (main_arg1 : FVec F S16384x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S16384x256 .f32 := Host.absf main_arg1
  let main_cst_0 : FVec F S_ .f32 := constant S_ .f32 0x7F800000#32
  let main_v5 : FVec F S16384x256 .f32 := broadcastInDim S16384x256 ![] bcast_S_S16384x256 main_cst_0
  let main_v6 : IVec S16384x256 1 := cmpf .olt main_v4 main_v5
  let main_c_1 : IVec S_ 1 := constantI S_ 1 1#1
  let main_v7 : IVec S_ 1 := (fun x v => Host.reduce IntOp.andi x v reducesTo_S16384x256_S_d0_1 h_S_) main_v6 main_c_1
  let main_v8 : IVec S_ 1 := andi main_v3 main_v7
  main_v8
-- ==== Kernel.lean ====
abbrev S8192x256 : Shape := ⟨2, ![8192, 256]⟩
abbrev S16384x256 : Shape := ⟨2, ![16384, 256]⟩
abbrev S_ : Shape := ⟨0, ![]⟩
abbrev S16384 : Shape := ⟨1, ![16384]⟩
abbrev S1x16384 : Shape := ⟨2, ![1, 16384]⟩
abbrev S8192x16384 : Shape := ⟨2, ![8192, 16384]⟩
abbrev S128x256 : Shape := ⟨2, ![128, 256]⟩
abbrev S128x16384 : Shape := ⟨2, ![128, 16384]⟩
abbrev S128x1 : Shape := ⟨2, ![128, 1]⟩
abbrev S128 : Shape := ⟨1, ![128]⟩
abbrev S2048x256 : Shape := ⟨2, ![2048, 256]⟩
abbrev S1x2048 : Shape := ⟨2, ![1, 2048]⟩
abbrev S128x2048 : Shape := ⟨2, ![128, 2048]⟩

abbrev nBuf : Space → Nat
  | .hbm => 8
  | .vmem => 8
  | .smem => 0
  | _ => 0

abbrev bufTy : (tb : Table) → Fin (tcTables nBuf tb) → BufTy
  | .hbm, ⟨0, _⟩ => ⟨S8192x256, .f32⟩
  | .hbm, ⟨1, _⟩ => ⟨S16384x256, .f32⟩
  | .hbm, ⟨2, _⟩ => ⟨S16384x256, .f32⟩
  | .hbm, ⟨3, _⟩ => ⟨S_, .f32⟩
  | .hbm, ⟨4, _⟩ => ⟨S16384, .f32⟩
  | .hbm, ⟨5, _⟩ => ⟨S1x16384, .f32⟩
  | .hbm, ⟨6, _⟩ => ⟨S16384x256, .bf16⟩
  | .hbm, ⟨7, _⟩ => ⟨S8192x16384, .f32⟩
  | .local _ .vmem, ⟨0, _⟩ => ⟨S128x256, .f32⟩
  | .local _ .vmem, ⟨1, _⟩ => ⟨S128x256, .f32⟩
  | .local _ .vmem, ⟨2, _⟩ => ⟨S16384x256, .bf16⟩
  | .local _ .vmem, ⟨3, _⟩ => ⟨S1x16384, .f32⟩
  | .local _ .vmem, ⟨4, _⟩ => ⟨S128x16384, .f32⟩
  | .local _ .vmem, ⟨5, _⟩ => ⟨S128x16384, .f32⟩
  | .local _ .vmem, ⟨6, _⟩ => ⟨S128x1, .f32⟩
  | .local _ .vmem, ⟨7, _⟩ => ⟨S128x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32_17 : BitVec 32 := 0#32
  let c0_i32 : BitVec 32 := 0#32
  let c1_i32 : BitVec 32 := 1#32
  let arg7 : BitVec 32 := Scf.iv c0_i32 c1_i32 k0_t1
  let c1_i32_16 : BitVec 32 := 1#32
  let v16 : BitVec 32 := Scalar.muli arg7 c1_i32_16
  let v17 : BitVec 32 := Scalar.addi c0_i32_17 v16
  let c2048_i32 : BitVec 32 := 2048#32
  let v18 : BitVec 32 := Scalar.muli v17 c2048_i32
  v18
def k0_off1 (k0_t1 : Fin k0_t1_loop.trips) : Fin 2 → Nat :=
  let c0_i32_17 : BitVec 32 := 0#32
  let c0_i32 : BitVec 32 := 0#32
  let c1_i32 : BitVec 32 := 1#32
  let arg7 : BitVec 32 := Scf.iv c0_i32 c1_i32 k0_t1
  let c1_i32_16 : BitVec 32 := 1#32
  let v16 : BitVec 32 := Scalar.muli arg7 c1_i32_16
  let v17 : BitVec 32 := Scalar.addi c0_i32_17 v16
  let c2048_i32 : BitVec 32 := 2048#32
  let v18 : BitVec 32 := Scalar.muli v17 c2048_i32
  let v19 : BitVec 32 := v18
  let v20 : Index := Scalar.indexCast v19
  let c0_18 : Index := 0#32
  ![v20.toNat, 0]
def k0_off2 (k0_t1 : Fin k0_t1_loop.trips) : Fin 2 → Nat :=
  let c0_19 : Index := 0#32
  let c0_i32_17 : BitVec 32 := 0#32
  let c0_i32 : BitVec 32 := 0#32
  let c1_i32 : BitVec 32 := 1#32
  let arg7 : BitVec 32 := Scf.iv c0_i32 c1_i32 k0_t1
  let c1_i32_16 : BitVec 32 := 1#32
  let v16 : BitVec 32 := Scalar.muli arg7 c1_i32_16
  let v17 : BitVec 32 := Scalar.addi c0_i32_17 v16
  let c2048_i32 : BitVec 32 := 2048#32
  let v18 : BitVec 32 := Scalar.muli v17 c2048_i32
  let v19 : BitVec 32 := v18
  let v23 : Index := Scalar.indexCast v19
  ![0, v23.toNat]
def k0_off3 (k0_t1 : Fin k0_t1_loop.trips) : Fin 2 → Nat :=
  let c0_24 : Index := 0#32
  let c0_i32_17 : BitVec 32 := 0#32
  let c0_i32 : BitVec 32 := 0#32
  let c1_i32 : BitVec 32 := 1#32
  let arg7 : BitVec 32 := Scf.iv c0_i32 c1_i32 k0_t1
  let c1_i32_16 : BitVec 32 := 1#32
  let v16 : BitVec 32 := Scalar.muli arg7 c1_i32_16
  let v17 : BitVec 32 := Scalar.addi c0_i32_17 v16
  let c2048_i32 : BitVec 32 := 2048#32
  let v18 : BitVec 32 := Scalar.muli v17 c2048_i32
  let v19 : BitVec 32 := v18
  let v38 : Index := Scalar.indexCast v19
  ![0, v38.toNat]
@[reducible] def k0_t2_loop : Scf.Loop 32 :=
  let c0_i32_8 : BitVec 32 := 0#32
  let c8_i32_9 : BitVec 32 := 8#32
  let v14 : BitVec 32 := Scalar.addi c0_i32_8 c8_i32_9
  let c1_i32_10 : BitVec 32 := 1#32
  ⟨c0_i32_8, v14, c1_i32_10⟩
def k0_mult2 (k0_t2 : Fin k0_t2_loop.trips) : BitVec 32 :=
  let c0_i32_17 : BitVec 32 := 0#32
  let c0_i32_8 : BitVec 32 := 0#32
  let c1_i32_10 : BitVec 32 := 1#32
  let arg7 : BitVec 32 := Scf.iv c0_i32_8 c1_i32_10 k0_t2
  let c1_i32_16 : BitVec 32 := 1#32
  let v16 : BitVec 32 := Scalar.muli arg7 c1_i32_16
  let v17 : BitVec 32 := Scalar.addi c0_i32_17 v16
  let c2048_i32 : BitVec 32 := 2048#32
  let v18 : BitVec 32 := Scalar.muli v17 c2048_i32
  v18
def k0_off4 (k0_t2 : Fin k0_t2_loop.trips) : Fin 2 → Nat :=
  let c0_18 : Index := 0#32
  let c0_i32_17 : BitVec 32 := 0#32
  let c0_i32_8 : BitVec 32 := 0#32
  let c1_i32_10 : BitVec 32 := 1#32
  let arg7 : BitVec 32 := Scf.iv c0_i32_8 c1_i32_10 k0_t2
  let c1_i32_16 : BitVec 32 := 1#32
  let v16 : BitVec 32 := Scalar.muli arg7 c1_i32_16
  let v17 : BitVec 32 := Scalar.addi c0_i32_17 v16
  let c2048_i32 : BitVec 32 := 2048#32
  let v18 : BitVec 32 := Scalar.muli v17 c2048_i32
  let v19 : BitVec 32 := v18
  let v20 : Index := Scalar.indexCast v19
  ![0, v20.toNat]
@[reducible] def k0_t3_loop : Scf.Loop 32 :=
  let c0_i32_12 : BitVec 32 := 0#32
  let c8_i32_13 : BitVec 32 := 8#32
  let v15 : BitVec 32 := Scalar.addi c0_i32_12 c8_i32_13
  let c1_i32_14 : BitVec 32 := 1#32
  ⟨c0_i32_12, v15, c1_i32_14⟩
def k0_mult3 (k0_t3 : Fin k0_t3_loop.trips) : BitVec 32 :=
  let c0_i32_17 : BitVec 32 := 0#32
  let c0_i32_12 : BitVec 32 := 0#32
  let c1_i32_14 : BitVec 32 := 1#32
  let arg7 : BitVec 32 := Scf.iv c0_i32_12 c1_i32_14 k0_t3
  let c1_i32_16 : BitVec 32 := 1#32
  let v16 : BitVec 32 := Scalar.muli arg7 c1_i32_16
  let v17 : BitVec 32 := Scalar.addi c0_i32_17 v16
  let c2048_i32 : BitVec 32 := 2048#32
  let v18 : BitVec 32 := Scalar.muli v17 c2048_i32
  v18
def k0_off5 (k0_t3 : Fin k0_t3_loop.trips) : Fin 2 → Nat :=
  let c0_18 : Index := 0#32
  let c0_i32_17 : BitVec 32 := 0#32
  let c0_i32_12 : BitVec 32 := 0#32
  let c1_i32_14 : BitVec 32 := 1#32
  let arg7 : BitVec 32 := Scf.iv c0_i32_12 c1_i32_14 k0_t3
  let c1_i32_16 : BitVec 32 := 1#32
  let v16 : BitVec 32 := Scalar.muli arg7 c1_i32_16
  let v17 : BitVec 32 := Scalar.addi c0_i32_17 v16
  let c2048_i32 : BitVec 32 := 2048#32
  let v18 : BitVec 32 := Scalar.muli v17 c2048_i32
  let v19 : BitVec 32 := v18
  let v20 : Index := Scalar.indexCast v19
  ![0, v20.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16384x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S16384x256_S16384_d1 : S16384x256.ReducesTo [1] S16384
  h_S_ : 0 < S_.numel
  bcast_S16384_S1x16384_1 : S16384.BroadcastsInDim S1x16384 (![1] : Fin 1 → Fin S1x16384.rank)
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  reduces_S128x256_S128 : S128x256.Reduces [1] S128
  shapeCasts_S128_S128x1 : S128.ShapeCasts S128x1
  inb_S128x1_S128x1_0_0 : ∀ a, (![0, 0] : Fin 2 → Nat) a + S128x1.size a ≤ S128x1.size a
  h_S128x1 : 0 < S128x1.numel
  shapeCasts_S128x1_S128x1 : S128x1.ShapeCasts S128x1
  h_S2048x256 : 0 < S2048x256.numel
  shapeCasts_S2048x256_S2048x256 : S2048x256.ShapeCasts S2048x256
  h_S1x2048 : 0 < S1x2048.numel
  shapeCasts_S1x2048_S1x2048 : S1x2048.ShapeCasts S1x2048
  broadcasts_S128x1_S128x2048 : S128x1.Broadcasts S128x2048
  broadcasts_S1x2048_S128x2048 : S1x2048.Broadcasts S128x2048
  h_S128x2048 : 0 < S128x2048.numel
  reduces_S128x2048_S128 : S128x2048.Reduces [1] S128
  shapeCasts_S128x2048_S128x2048 : S128x2048.ShapeCasts S128x2048
  dot_S128x256_S2048x256_S128x2048_1_1_0_0_n_n_wf : DotDims.WF S128x256 S2048x256 S128x2048 [1] [1] [0] [0] [] []
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S2048x256.size a ≤ S16384x256.size a
  k0_off2_inb : ∀ k0_t1 : Fin k0_t1_loop.trips, ∀ a, (k0_off2 k0_t1) a + S1x2048.size a ≤ S1x16384.size a
  k0_off3_inb : ∀ k0_t1 : Fin k0_t1_loop.trips, ∀ a, (k0_off3 k0_t1) a + S128x2048.size a ≤ S128x16384.size a
  k0_t2_ok : k0_t2_loop.OK
  k0_mult2_dvd : ∀ k0_t2 : Fin k0_t2_loop.trips, 2048 ∣ (k0_mult2 k0_t2).toNat
  k0_off4_inb : ∀ k0_t2 : Fin k0_t2_loop.trips, ∀ a, (k0_off4 k0_t2) a + S128x2048.size a ≤ S128x16384.size a
  k0_t3_ok : k0_t3_loop.OK
  k0_mult3_dvd : ∀ k0_t3 : Fin k0_t3_loop.trips, 2048 ∣ (k0_mult3 k0_t3).toNat
  k0_off5_inb : ∀ k0_t3 : Fin k0_t3_loop.trips, ∀ a, (k0_off5 k0_t3) a + S128x2048.size a ≤ S128x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S8192x256.size a
  hwx0_0 : ∀ i : grid0.Coords, EltTy.bits .f32 = 32 ∨ (Rect.block (s := S8192x256) S128x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x256.size a ≤ S16384x256.size a
  hwx0_1 : ∀ i : grid0.Coords, EltTy.bits .bf16 = 32 ∨ (Rect.block (s := S16384x256) S16384x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16384.size a ≤ S1x16384.size a
  hwx0_2 : ∀ i : grid0.Coords, EltTy.bits .f32 = 32 ∨ (Rect.block (s := S1x16384) S1x16384.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x16384.size a ≤ S8192x16384.size a
  hwx0_3 : ∀ i : grid0.Coords, EltTy.bits .f32 = 32 ∨ (Rect.block (s := S8192x16384) S128x16384.size (cc0_transform_3 i) (hinb0_3 i)).WholeWords (EltTy.packing .f32)

variable [Facts₀]

def dot_S128x256_S2048x256_S128x2048_1_1_0_0_n_n : DotDims S128x256 S2048x256 S128x2048 where
  lhsContracting := [1]
  rhsContracting := [1]
  lhsNonContracting := [0]
  rhsNonContracting := [0]
  lhsBatch := []
  rhsBatch := []
  wf := dot_S128x256_S2048x256_S128x2048_1_1_0_0_n_n_wf

abbrev win0_0 : Pipeline.Window sig grid0 :=
  Pipeline.Window.ofSpec (Memref.whole main_arg0) S128x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S16384x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S128x16384.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x256 : Shape := ⟨2, ![8192, 256]⟩
abbrev S16384x256 : Shape := ⟨2, ![16384, 256]⟩
abbrev S_ : Shape := ⟨0, ![]⟩
abbrev S8192 : Shape := ⟨1, ![8192]⟩
abbrev S8192x1 : Shape := ⟨2, ![8192, 1]⟩
abbrev S16384 : Shape := ⟨1, ![16384]⟩
abbrev S1x16384 : Shape := ⟨2, ![1, 16384]⟩
abbrev S256x16384 : Shape := ⟨2, ![256, 16384]⟩
abbrev S8192x16384 : Shape := ⟨2, ![8192, 16384]⟩

abbrev nBuf : Space → Nat
  | .hbm => 40
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S16384x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S16384x256, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S256x16384, .f32⟩
  | .hbm, ⟨11, _⟩ => ⟨S8192x16384, .f32⟩
  | .hbm, ⟨12, _⟩ => ⟨S8192x16384, .f32⟩
  | .hbm, ⟨13, _⟩ => ⟨S8192x16384, .f32⟩
  | .hbm, ⟨14, _⟩ => ⟨S8192x16384, .f32⟩
  | .hbm, ⟨15, _⟩ => ⟨S_, .f32⟩
  | .hbm, ⟨16, _⟩ => ⟨S8192x16384, .f32⟩
  | .hbm, ⟨17, _⟩ => ⟨S8192x16384, .f32⟩
  | .hbm, ⟨18, _⟩ => ⟨S8192x16384, .f32⟩
  | .hbm, ⟨19, _⟩ => ⟨S_, .f32⟩
  | .hbm, ⟨20, _⟩ => ⟨S8192x16384, .f32⟩
  | .hbm, ⟨21, _⟩ => ⟨S8192x16384, .f32⟩
  | .hbm, ⟨22, _⟩ => ⟨S8192x16384, .f32⟩
  | .hbm, ⟨23, _⟩ => ⟨S_, .f32⟩
  | .hbm, ⟨24, _⟩ => ⟨S8192x16384, .f32⟩
  | .hbm, ⟨25, _⟩ => ⟨S8192x16384, .f32⟩
  | .hbm, ⟨26, _⟩ => ⟨S_, .f32⟩
  | .hbm, ⟨27, _⟩ => ⟨S8192, .f32⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S8192x1, .f32⟩
  | .hbm, ⟨32, _⟩ => ⟨S8192x16384, .f32⟩
  | .hbm, ⟨33, _⟩ => ⟨S8192x16384, .f32⟩
  | .hbm, ⟨34, _⟩ => ⟨S8192x16384, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x16384, .f32⟩
  | .hbm, ⟨39, _⟩ => ⟨S8192x16384, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_cst_5 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  reducesTo_S16384x256_S16384_d1 : S16384x256.ReducesTo [1] S16384
  bcast_S16384_S1x16384_1 : S16384.BroadcastsInDim S1x16384 (![1] : Fin 1 → Fin S1x16384.rank)
  transposes_S16384x256_S256x16384_1_0 : S16384x256.Transposes [1, 0] S256x16384
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  reducesTo_S8192x16384_S8192_d1 : S8192x16384.ReducesTo [1] S8192
  bcast_S_S8192 : S_.BroadcastsInDim S8192 (![] : Fin 0 → Fin S8192.rank)
  dot_S8192x256_S256x16384_S8192x16384_1_0_0_1_n_n_wf : DotDims.WF S8192x256 S256x16384 S8192x16384 [1] [0] [0] [1] [] []

variable [Facts₀]

def dot_S8192x256_S256x16384_S8192x16384_1_0_0_1_n_n : DotDims S8192x256 S256x16384 S8192x16384 where
  lhsContracting := [1]
  rhsContracting := [0]
  lhsNonContracting := [0]
  rhsNonContracting := [1]
  lhsBatch := []
  rhsBatch := []
  wf := dot_S8192x256_S256x16384_S8192x16384_1_0_0_1_n_n_wf

class Facts : Prop extends Facts₀ where

variable [Facts]
-- ==== Proof.LibCoveredWrites.lean ====
/-
  What a list of stores that covers a whole buffer leaves in it.

  A buffer written piece by piece holds, at every element some piece covers, a value that does not depend on what the
  buffer held before. When the pieces cover every element of a whole buffer, the contents after the stores are
  therefore the same over any two prior contents; and the same holds when only a tail of the list (the earlier
  stores) covers the buffer, whatever later stores follow.
-/
import Idealize.ShloMosaic.Lib.Writes
import Idealize.ShloMosaic.Lib.Pipeline.Frame

noncomputable section

namespace Cert.Lib.CoveredWrites

open Idealize.ShloMosaic

variable {sig : RefSig} {κ : Kind} {sp : Space} {s : Shape} {e : EltTy} {Val : EltTy → Type}

/-- Stores that cover a whole buffer leave the same contents over any two prior contents. -/
theorem writes_eq_of_cover {m : Memref sig κ sp s e} (h : m.IsWhole) (f f' : m.view.ty.Contents Val)
    (L : List (View.Piece Val s e)) (hc : ∀ y, ∃ p ∈ L, y ∈ p.1.set) :
    m.view.writes Val f L = m.view.writes Val f' L :=
  (h.eq_unread rfl).trans
    ((congrArg h.unread (View.read_writes_of_cover m.view f m.view f' L hc)).trans (h.eq_unread rfl).symm)

/-- The same when the earlier stores alone cover the buffer, whatever the later ones are. -/
theorem writes_append_eq_of_cover {m : Memref sig κ sp s e} (h : m.IsWhole) (f f' : m.view.ty.Contents Val)
    (L L' : List (View.Piece Val s e)) (hc : ∀ y, ∃ p ∈ L', y ∈ p.1.set) :
    m.view.writes Val f (L ++ L') = m.view.writes Val f' (L ++ L') := by
  rw [View.writes_append, View.writes_append, writes_eq_of_cover h f f' L' hc]

end Cert.Lib.CoveredWrites

end
-- ==== Proof.LoopStoresBits.lean ====
/-
  The first chunk loop of the kernel body, read for what its stores are.

  The body fills its output block in three loops over eight column chunks of 2048. A trip of the first loop stores a
  chunk of scores into the output block and updates the running row maximum; the load of the output block it makes
  before that store is never used. So the stores of the first loop do not depend on what the output block held when
  the loop was entered, and after its eight trips they cover the whole block: what the block holds from then on is
  the same whatever it held before the body. These two facts are what the run of the body needs in order to name the
  block's final contents without mentioning its prior contents.
-/
import proofs.«124929_j41137196761280_2_alg».proof.Proof.Gen.Kernel.Frame.Runs
import proofs.«124929_j41137196761280_2_alg».proof.Proof.LibCoveredWrites

set_option maxRecDepth 16384

noncomputable section

namespace Cert.Kernel.LoopStores

open Cert.Kernel Cert.Kernel.Gen
open Idealize.ShloMosaic Idealize.ShloMosaic.TcCoe Idealize.ShloMosaic.Tactic
open Idealize.SL Idealize.SL.Sem

variable {F : FTy → Type} [FloatOps F]

variable {𝒱 : Variants} {c : Dev nD} {bd : Option 𝒱.V} {i : grid0.Coords} {arg1 : Memref sig .tc .vmem S128x256 .f32} {harg1 : arg1.IsWhole} {arg2 : Memref sig .tc .vmem S16384x256 .bf16} {harg2 : arg2.IsWhole} {arg3 : Memref sig .tc .vmem S1x16384 .f32} {harg3 : arg3.IsWhole} {arg4 : Memref sig .tc .vmem S128x16384 .f32} {harg4 : arg4.IsWhole} {arg5 : Memref sig .tc .vmem S128x1 .f32} {harg5 : arg5.IsWhole} {arg6 : Memref sig .tc .vmem S128x1 .f32} {harg6 : arg6.IsWhole}
  {v0 : Vec F S128x256 .f32} {X2 : BufTy.Contents (Elt F) arg2.view.ty} {X3 : BufTy.Contents (Elt F) arg3.view.ty}

/-- One trip's stores do not depend on what the trip finds in the output block. -/
theorem trip_indep (k : Fin k0_t1_loop.trips) (f4 f4' : BufTy.Contents (Elt F) arg4.view.ty) (f5 : BufTy.Contents (Elt F) arg5.view.ty) :
    tripL_k0_t1 (F := F) 𝒱 c bd i arg1 harg1 arg2 harg2 arg3 harg3 arg4 harg4 arg5 harg5 arg6 harg6 v0 X2 X3 k f4 f5 = tripL_k0_t1 (F := F) 𝒱 c bd i arg1 harg1 arg2 harg2 arg3 harg3 arg4 harg4 arg5 harg5 arg6 harg6 v0 X2 X3 k f4' f5 := by
  unfold tripL_k0_t1 trip_k0_t1
  rfl

/-- Hence neither do the stores of the trips before any trip count. -/
theorem stores_indep (G4 G4' : BufTy.Contents (Elt F) arg4.view.ty) (G5 : BufTy.Contents (Elt F) arg5.view.ty) :
    ∀ n : ℕ, pb_k0_t1 (F := F) 𝒱 c bd i arg1 harg1 arg2 harg2 arg3 harg3 arg4 harg4 arg5 harg5 arg6 harg6 v0 X2 X3 G4 G5 n = pb_k0_t1 (F := F) 𝒱 c bd i arg1 harg1 arg2 harg2 arg3 harg3 arg4 harg4 arg5 harg5 arg6 harg6 v0 X2 X3 G4' G5 n
  | 0 => rfl
  | n + 1 => by
    rw [pb_k0_t1.eq_2, pb_k0_t1.eq_2, stores_indep G4 G4' G5 n]
    unfold pb_k0_t1Step
    by_cases h : n < k0_t1_loop.trips
    · rw [dif_pos h, dif_pos h, trip_indep ⟨n, h⟩ _ (arg4.view.writes (Elt F) G4' (pb_k0_t1 (F := F) 𝒱 c bd i arg1 harg1 arg2 harg2 arg3 harg3 arg4 harg4 arg5 harg5 arg6 harg6 v0 X2 X3 G4' G5 n).1)]
    · rw [dif_neg h, dif_neg h]

/-- The eight chunk stores of the first loop cover the output block. -/
theorem stores_cover (G4 : BufTy.Contents (Elt F) arg4.view.ty) (G5 : BufTy.Contents (Elt F) arg5.view.ty) (y : S128x16384.Idx) :
    ∃ pc ∈ (pb_k0_t1 (F := F) 𝒱 c bd i arg1 harg1 arg2 harg2 arg3 harg3 arg4 harg4 arg5 harg5 arg6 harg6 v0 X2 X3 G4 G5 (Scf.trips k0_t1_loop.lb k0_t1_loop.ub k0_t1_loop.st)).1, y ∈ pc.1.set :=
  View.cover_of_tiledL (pb_k0_t1 (F := F) 𝒱 c bd i arg1 harg1 arg2 harg2 arg3 harg3 arg4 harg4 arg5 harg5 arg6 harg6 v0 X2 X3 G4 G5 (Scf.trips k0_t1_loop.lb k0_t1_loop.ub k0_t1_loop.st)).1 S128x2048.size (by sl_kernel_rfl) y

/-- So what the output block holds after the first loop does not depend on what it held before, -/
theorem after_first (G4 G4' : BufTy.Contents (Elt F) arg4.view.ty) (G5 : BufTy.Contents (Elt F) arg5.view.ty) :
    arg4.view.writes (Elt F) G4 (pb_k0_t1 (F := F) 𝒱 c bd i arg1 harg1 arg2 harg2 arg3 harg3 arg4 harg4 arg5 harg5 arg6 harg6 v0 X2 X3 G4' G5 (Scf.trips k0_t1_loop.lb k0_t1_loop.ub k0_t1_loop.st)).1
      = arg4.view.writes (Elt F) G4' (pb_k0_t1 (F := F) 𝒱 c bd i arg1 harg1 arg2 harg2 arg3 harg3 arg4 harg4 arg5 harg5 arg6 harg6 v0 X2 X3 G4' G5 (Scf.trips k0_t1_loop.lb k0_t1_loop.ub k0_t1_loop.st)).1 :=
  Cert.Lib.CoveredWrites.writes_eq_of_cover harg4 G4 G4' _ (stores_cover G4' G5)

/-- nor after any later stores. -/
theorem after_later (G4 G4' : BufTy.Contents (Elt F) arg4.view.ty) (G5 : BufTy.Contents (Elt F) arg5.view.ty) (L : List (View.Piece (Elt F) S128x16384 .f32)) :
    arg4.view.writes (Elt F) G4 (L ++ (pb_k0_t1 (F := F) 𝒱 c bd i arg1 harg1 arg2 harg2 arg3 harg3 arg4 harg4 arg5 harg5 arg6 harg6 v0 X2 X3 G4' G5 (Scf.trips k0_t1_loop.lb k0_t1_loop.ub k0_t1_loop.st)).1)
      = arg4.view.writes (Elt F) G4' (L ++ (pb_k0_t1 (F := F) 𝒱 c bd i arg1 harg1 arg2 harg2 arg3 harg3 arg4 harg4 arg5 harg5 arg6 harg6 v0 X2 X3 G4' G5 (Scf.trips k0_t1_loop.lb k0_t1_loop.ub k0_t1_loop.st)).1) :=
  Cert.Lib.CoveredWrites.writes_append_eq_of_cover harg4 G4 G4' L _ (stores_cover G4' G5)

end Cert.Kernel.LoopStores

end
-- ==== Proof.LoopStoresIdeal.lean ====
/-
  The first chunk loop of the kernel body, read for what its stores are.

  The body fills its output block in three loops over eight column chunks of 2048. A trip of the first loop stores a
  chunk of scores into the output block and updates the running row maximum; the load of the output block it makes
  before that store is never used. So the stores of the first loop do not depend on what the output block held when
  the loop was entered, and after its eight trips they cover the whole block: what the block holds from then on is
  the same whatever it held before the body. These two facts are what the run of the body needs in order to name the
  block's final contents without mentioning its prior contents.
-/
import proofs.«124929_j41137196761280_2_alg».proof.Proof.Gen.KernelIdeal.Frame.Runs
import proofs.«124929_j41137196761280_2_alg».proof.Proof.LibCoveredWrites

set_option maxRecDepth 16384

noncomputable section

namespace Cert.KernelIdeal.LoopStores

open Cert.KernelIdeal Cert.KernelIdeal.Gen
open Idealize.ShloMosaic Idealize.ShloMosaic.TcCoe Idealize.ShloMosaic.Tactic
open Idealize.SL Idealize.SL.Sem

variable {F : FTy → Type} [FloatOps F]

variable {𝒱 : Variants} {c : Dev nD} {bd : Option 𝒱.V} {i : grid0.Coords} {arg1 : Memref sig .tc .vmem S128x256 .f32} {harg1 : arg1.IsWhole} {arg2 : Memref sig .tc .vmem S16384x256 .bf16} {harg2 : arg2.IsWhole} {arg3 : Memref sig .tc .vmem S1x16384 .f32} {harg3 : arg3.IsWhole} {arg4 : Memref sig .tc .vmem S128x16384 .f32} {harg4 : arg4.IsWhole} {arg5 : Memref sig .tc .vmem S128x1 .f32} {harg5 : arg5.IsWhole} {arg6 : Memref sig .tc .vmem S128x1 .f32} {harg6 : arg6.IsWhole}
  {v0 : Vec F S128x256 .f32} {X2 : BufTy.Contents (Elt F) arg2.view.ty} {X3 : BufTy.Contents (Elt F) arg3.view.ty}

/-- One trip's stores do not depend on what the trip finds in the output block. -/
theorem trip_indep (k : Fin k0_t1_loop.trips) (f4 f4' : BufTy.Contents (Elt F) arg4.view.ty) (f5 : BufTy.Contents (Elt F) arg5.view.ty) :
    tripL_k0_t1 (F := F) 𝒱 c bd i arg1 harg1 arg2 harg2 arg3 harg3 arg4 harg4 arg5 harg5 arg6 harg6 v0 X2 X3 k f4 f5 = tripL_k0_t1 (F := F) 𝒱 c bd i arg1 harg1 arg2 harg2 arg3 harg3 arg4 harg4 arg5 harg5 arg6 harg6 v0 X2 X3 k f4' f5 := by
  unfold tripL_k0_t1 trip_k0_t1
  rfl

/-- Hence neither do the stores of the trips before any trip count. -/
theorem stores_indep (G4 G4' : BufTy.Contents (Elt F) arg4.view.ty) (G5 : BufTy.Contents (Elt F) arg5.view.ty) :
    ∀ n : ℕ, pb_k0_t1 (F := F) 𝒱 c bd i arg1 harg1 arg2 harg2 arg3 harg3 arg4 harg4 arg5 harg5 arg6 harg6 v0 X2 X3 G4 G5 n = pb_k0_t1 (F := F) 𝒱 c bd i arg1 harg1 arg2 harg2 arg3 harg3 arg4 harg4 arg5 harg5 arg6 harg6 v0 X2 X3 G4' G5 n
  | 0 => rfl
  | n + 1 => by
    rw [pb_k0_t1.eq_2, pb_k0_t1.eq_2, stores_indep G4 G4' G5 n]
    unfold pb_k0_t1Step
    by_cases h : n < k0_t1_loop.trips
    · rw [dif_pos h, dif_pos h, trip_indep ⟨n, h⟩ _ (arg4.view.writes (Elt F) G4' (pb_k0_t1 (F := F) 𝒱 c bd i arg1 harg1 arg2 harg2 arg3 harg3 arg4 harg4 arg5 harg5 arg6 harg6 v0 X2 X3 G4' G5 n).1)]
    · rw [dif_neg h, dif_neg h]

/-- The eight chunk stores of the first loop cover the output block. -/
theorem stores_cover (G4 : BufTy.Contents (Elt F) arg4.view.ty) (G5 : BufTy.Contents (Elt F) arg5.view.ty) (y : S128x16384.Idx) :
    ∃ pc ∈ (pb_k0_t1 (F := F) 𝒱 c bd i arg1 harg1 arg2 harg2 arg3 harg3 arg4 harg4 arg5 harg5 arg6 harg6 v0 X2 X3 G4 G5 (Scf.trips k0_t1_loop.lb k0_t1_loop.ub k0_t1_loop.st)).1, y ∈ pc.1.set :=
  View.cover_of_tiledL (pb_k0_t1 (F := F) 𝒱 c bd i arg1 harg1 arg2 harg2 arg3 harg3 arg4 harg4 arg5 harg5 arg6 harg6 v0 X2 X3 G4 G5 (Scf.trips k0_t1_loop.lb k0_t1_loop.ub k0_t1_loop.st)).1 S128x2048.size (by sl_kernel_rfl) y

/-- So what the output block holds after the first loop does not depend on what it held before, -/
theorem after_first (G4 G4' : BufTy.Contents (Elt F) arg4.view.ty) (G5 : BufTy.Contents (Elt F) arg5.view.ty) :
    arg4.view.writes (Elt F) G4 (pb_k0_t1 (F := F) 𝒱 c bd i arg1 harg1 arg2 harg2 arg3 harg3 arg4 harg4 arg5 harg5 arg6 harg6 v0 X2 X3 G4' G5 (Scf.trips k0_t1_loop.lb k0_t1_loop.ub k0_t1_loop.st)).1
      = arg4.view.writes (Elt F) G4' (pb_k0_t1 (F := F) 𝒱 c bd i arg1 harg1 arg2 harg2 arg3 harg3 arg4 harg4 arg5 harg5 arg6 harg6 v0 X2 X3 G4' G5 (Scf.trips k0_t1_loop.lb k0_t1_loop.ub k0_t1_loop.st)).1 :=
  Cert.Lib.CoveredWrites.writes_eq_of_cover harg4 G4 G4' _ (stores_cover G4' G5)

/-- nor after any later stores. -/
theorem after_later (G4 G4' : BufTy.Contents (Elt F) arg4.view.ty) (G5 : BufTy.Contents (Elt F) arg5.view.ty) (L : List (View.Piece (Elt F) S128x16384 .f32)) :
    arg4.view.writes (Elt F) G4 (L ++ (pb_k0_t1 (F := F) 𝒱 c bd i arg1 harg1 arg2 harg2 arg3 harg3 arg4 harg4 arg5 harg5 arg6 harg6 v0 X2 X3 G4' G5 (Scf.trips k0_t1_loop.lb k0_t1_loop.ub k0_t1_loop.st)).1)
      = arg4.view.writes (Elt F) G4' (L ++ (pb_k0_t1 (F := F) 𝒱 c bd i arg1 harg1 arg2 harg2 arg3 harg3 arg4 harg4 arg5 harg5 arg6 harg6 v0 X2 X3 G4' G5 (Scf.trips k0_t1_loop.lb k0_t1_loop.ub k0_t1_loop.st)).1) :=
  Cert.Lib.CoveredWrites.writes_append_eq_of_cover harg4 G4 G4' L _ (stores_cover G4' G5)

end Cert.KernelIdeal.LoopStores

end
-- ==== Proof.LibChunkedSup.lean ====
/-
  A supremum taken chunk by chunk.

  For a family `f : Fin n → α` in a linear order with a least element, `supBelow f a` is the supremum of the
  entries whose position is below `a`. It is `⊥` at `a = 0`, the supremum of the whole family once `a` reaches
  `n`, and going from `a` to `a + b` joins in the supremum of the next `b` entries (`supBelow_add`): the value an
  accumulator holds that starts at `⊥` and takes, chunk after chunk, the maximum of itself and the chunk's
  maximum. Also: a `Finset.fold` of `max` from `⊥` is the `Finset.sup` (`fold_max_bot_eq_sup`), the form in which
  a max-reduction over one axis is read.
-/
import Mathlib.Data.Finset.Lattice.Fold
import Mathlib.Data.Finset.Fold
import Mathlib.Data.Fintype.Basic
import Mathlib.Order.Fin.Basic

namespace ChunkedSup

variable {α : Type*} [LinearOrder α] [OrderBot α]

/-- The supremum of the entries of `f` at positions below `a`. -/
def supBelow {n : ℕ} (f : Fin n → α) (a : ℕ) : α :=
  (Finset.univ.filter fun j : Fin n => j.val < a).sup f

theorem supBelow_le_iff {n : ℕ} (f : Fin n → α) (a : ℕ) (c : α) :
    supBelow f a ≤ c ↔ ∀ j : Fin n, j.val < a → f j ≤ c := by
  unfold supBelow
  rw [Finset.sup_le_iff]
  exact ⟨fun h j hj => h j (Finset.mem_filter.2 ⟨Finset.mem_univ j, hj⟩),
    fun h j hj => h j (Finset.mem_filter.1 hj).2⟩

/-- No entry is below position `0`. -/
theorem supBelow_zero {n : ℕ} (f : Fin n → α) : supBelow f 0 = ⊥ :=
  le_antisymm ((supBelow_le_iff f 0 ⊥).2 fun j hj => absurd hj (Nat.not_lt_zero _)) bot_le

/-- Every entry is below position `n`. -/
theorem supBelow_all {n : ℕ} (f : Fin n → α) (a : ℕ) (h : n ≤ a) : supBelow f a = Finset.univ.sup f := by
  refine eq_of_forall_ge_iff fun c => ?_
  rw [supBelow_le_iff, Finset.sup_le_iff]
  exact ⟨fun hc j _ => hc j (lt_of_lt_of_le j.isLt h), fun hc j _ => hc j (Finset.mem_univ j)⟩

/-- The next `b` entries joined in: the supremum below `a + b` is the larger of the supremum below `a` and the
    supremum of the entries at `a`, `a + 1`, …, `a + b - 1`. -/
theorem supBelow_add {n : ℕ} (f : Fin n → α) (a b : ℕ) (h : a + b ≤ n) :
    supBelow f (a + b)
      = max (supBelow f a) (Finset.univ.sup fun k : Fin b => f ⟨a + k.val, by have := k.isLt; omega⟩) := by
  refine eq_of_forall_ge_iff fun c => ?_
  rw [max_le_iff, supBelow_le_iff, supBelow_le_iff, Finset.sup_le_iff]
  constructor
  · intro hc
    exact ⟨fun j hj => hc j (by omega), fun k _ => hc _ (by have := k.isLt; show a + k.val < a + b; omega)⟩
  · rintro ⟨h1, h2⟩ j hj
    by_cases hja : j.val < a
    · exact h1 j hja
    · have e : j = ⟨a + (⟨j.val - a, by omega⟩ : Fin b).val, by have := j.isLt; show a + (j.val - a) < n; omega⟩ :=
        Fin.ext (by show j.val = a + (j.val - a); omega)
      rw [e]
      exact h2 ⟨j.val - a, by omega⟩ (Finset.mem_univ _)

/-- A fold of `max` from the least element is the supremum. -/
theorem fold_max_bot_eq_sup {ι : Type*} (s : Finset ι) (f : ι → α) : s.fold max ⊥ f = s.sup f := by
  refine eq_of_forall_ge_iff fun c => ?_
  rw [Finset.fold_max_le, Finset.sup_le_iff]
  exact ⟨fun h => h.2, fun h => ⟨bot_le, h⟩⟩

end ChunkedSup
-- ==== Proof.LibChunkedSum.lean ====
/-
  A sum taken chunk by chunk.

  For a family `f : Fin n → α` in a commutative additive monoid, `sumBelow f a` is the sum of the entries whose
  position is below `a`. It is `0` at `a = 0`, the sum of the whole family at `a = n`, and going from `a` to
  `a + b` adds the sum of the next `b` entries (`sumBelow_add`): the value an accumulator holds that starts at
  `0` and adds, chunk after chunk, the chunk's sum.
-/
import Mathlib.Algebra.BigOperators.Fin
import Mathlib.Algebra.BigOperators.Intervals

namespace ChunkedSum

open scoped BigOperators

variable {α : Type*} [AddCommMonoid α]

/-- The entry at position `j`, or `0` past the end. -/
def entry {n : ℕ} (f : Fin n → α) (j : ℕ) : α := if h : j < n then f ⟨j, h⟩ else 0

/-- The sum of the entries of `f` at positions below `a`. -/
def sumBelow {n : ℕ} (f : Fin n → α) (a : ℕ) : α := ∑ j ∈ Finset.range a, entry f j

theorem sumBelow_zero {n : ℕ} (f : Fin n → α) : sumBelow f 0 = 0 := Finset.sum_range_zero _

/-- Every entry is below position `n`. -/
theorem sumBelow_all {n : ℕ} (f : Fin n → α) : sumBelow f n = ∑ j, f j := by
  unfold sumBelow
  rw [Finset.sum_range]
  exact Finset.sum_congr rfl fun j _ => by unfold entry; rw [dif_pos j.isLt]

/-- The next `b` entries added: the sum below `a + b` is the sum below `a` plus the sum of the entries at
    `a`, `a + 1`, …, `a + b - 1`. -/
theorem sumBelow_add {n : ℕ} (f : Fin n → α) (a b : ℕ) (h : a + b ≤ n) :
    sumBelow f (a + b) = sumBelow f a + ∑ k : Fin b, f ⟨a + k.val, by have := k.isLt; omega⟩ := by
  unfold sumBelow
  rw [Finset.sum_range_add]
  congr 1
  rw [Finset.sum_range]
  exact Finset.sum_congr rfl fun k _ => by
    unfold entry
    rw [dif_pos (by have := k.isLt; omega)]

end ChunkedSum
-- ==== Proof.Spec.lean ====
/-
  The function both programs compute, on the extended reals.

  For a row x_b of the first matrix and a row w_o of the second, the score is
      s(b, o) = -2 · sqrt(max((|x_b|² + |w_o|²) − 2 · ⟨x_b, w_o⟩, 0)),
  minus twice the Euclidean distance between the two rows, and the result is the softmax of each row of scores:
      out(b, o) = exp(s(b, o) − M_b) / Σ_o' exp(s(b, o') − M_b),   M_b = sup_o' s(b, o').
  The kernel takes the supremum and the sum chunk by chunk (eight chunks of 2048 columns), starting the running
  maximum at −∞ and the running sum at 0; the reference takes each in one pass, joining the supremum with −∞ and
  adding the sum to 0. Suprema and sums of extended reals do not depend on grouping, so the two agree with no
  assumption on the entries (`chunked_top`, `chunked_sum`).
-/
import Idealize.ShloMosaic.PureOps.Ideal
import proofs.«124929_j41137196761280_2_alg».proof.Proof.LibChunkedSup
import proofs.«124929_j41137196761280_2_alg».proof.Proof.LibChunkedSum

noncomputable section

namespace Cert.Softmax

open Idealize.ShloMosaic
open scoped BigOperators

/-- The score from the two squared norms and the inner product; the three float words (2.0, 0.0, −2.0) are kept as
    words: both programs spell the same ones. -/
def score (xx ww xw : EReal) : EReal :=
  Ideal.ofBits .f32 0xC0000000#32
    * Ideal.sqrt (max ((xx + ww) - Ideal.ofBits .f32 0x40000000#32 * xw) (Ideal.ofBits .f32 0x00000000#32))

/-- The softmax of a row of scores at one position. -/
def softmaxAt {n : ℕ} (s : Fin n → EReal) (o : Fin n) : EReal :=
  Ideal.div (Ideal.exp (s o - ⨆ j, s j)) (∑ j, Ideal.exp (s j - ⨆ j', s j'))

/-- A running maximum started at −∞ that takes, for each of K chunks of C entries in turn, the maximum of itself and
    the chunk's supremum ends at the supremum of all K·C entries. -/
theorem chunked_top {n C : ℕ} (s : Fin n → EReal) (g : ℕ → Fin C → EReal) (m : ℕ → EReal) (K : ℕ) (hK : C * K = n)
    (hg : ∀ k, k < K → ∀ (q : Fin C) (j : Fin n), j.val = C * k + q.val → g k q = s j)
    (h0 : m 0 = ⊥) (hstep : ∀ k, k < K → m (k + 1) = max (m k) (⨆ q, g k q)) : m K = ⨆ j, s j := by
  have key : ∀ k, k ≤ K → m k = ChunkedSup.supBelow s (C * k) := by
    intro k
    induction k with
    | zero => intro _; rw [h0, Nat.mul_zero, ChunkedSup.supBelow_zero]
    | succ k ih =>
      intro hk
      have hk' : k < K := hk
      have hle : C * k + C ≤ n := by rw [← hK, ← Nat.mul_succ]; exact Nat.mul_le_mul_left C hk
      rw [hstep k hk', ih (Nat.le_of_lt hk'), Nat.mul_succ, ChunkedSup.supBelow_add s (C * k) C hle,
        ← Finset.sup_univ_eq_iSup]
      congr 1
      exact Finset.sup_congr rfl fun q _ => hg k hk' q _ rfl
  rw [key K le_rfl, hK, ChunkedSup.supBelow_all s n le_rfl, Finset.sup_univ_eq_iSup]

/-- A running sum started at 0 that adds, for each of K chunks of C entries in turn, the chunk's sum ends at the sum of
    all K·C entries. -/
theorem chunked_sum {n C : ℕ} (f : Fin n → EReal) (g : ℕ → Fin C → EReal) (l : ℕ → EReal) (K : ℕ) (hK : C * K = n)
    (hg : ∀ k, k < K → ∀ (q : Fin C) (j : Fin n), j.val = C * k + q.val → g k q = f j)
    (h0 : l 0 = 0) (hstep : ∀ k, k < K → l (k + 1) = l k + ∑ q, g k q) : l K = ∑ j, f j := by
  have key : ∀ k, k ≤ K → l k = ChunkedSum.sumBelow f (C * k) := by
    intro k
    induction k with
    | zero => intro _; rw [h0, Nat.mul_zero, ChunkedSum.sumBelow_zero]
    | succ k ih =>
      intro hk
      have hk' : k < K := hk
      have hle : C * k + C ≤ n := by rw [← hK, ← Nat.mul_succ]; exact Nat.mul_le_mul_left C hk
      rw [hstep k hk', ih (Nat.le_of_lt hk'), Nat.mul_succ, ChunkedSum.sumBelow_add f (C * k) C hle]
      congr 1
      exact Finset.sum_congr rfl fun q _ => hg k hk' q _ rfl
  rw [key K le_rfl, hK, ChunkedSum.sumBelow_all]

end Cert.Softmax

end
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«124929_j41137196761280_2_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.Payloads.lean ====
/-
  The kernel body's seven stored values, read at one entry, on the extended reals.

  v0 is the block of 128 rows of x; W a chunk of 2048 rows of the weights, w2 the squared norms of those rows as a
  [1, 2048] row; S a chunk of scores, E a chunk of exponentials; m and l are [128, 1] columns (running row maximum, running
  row sum). Each stored value is an entrywise expression of these, a row sum or row maximum carried back through a
  column, or a product with the transposed chunk of weights; read at (p, q) it is the textbook scalar expression.
-/
import proofs.«124929_j41137196761280_2_alg».proof.Proof.Gen.KernelIdeal.Skeleton
import proofs.«124929_j41137196761280_2_alg».proof.Proof.Spec
import proofs.«124929_j41137196761280_2_alg».proof.Proof.LibKeepdimsColumn
import proofs.«124929_j41137196761280_2_alg».proof.Proof.LibMaxLane
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx
open scoped BigOperators

/-- The dimension numbers of the body's product: x-block times the chunk of weights transposed. -/
abbrev D := dot_S128x256_S2048x256_S128x2048_1_1_0_0_n_n

theorem lhs0 (i : S128x2048.Idx) (q : D.contr.Idx) : (D.lhsIdx i q 0).val = (i 0).val := by
  unfold DotDims.lhsIdx
  rw [dif_neg (show ¬(0 : Fin S128x256.rank) ∈ D.lhsBatch by decide), dif_pos (show (0 : Fin S128x256.rank) ∈ D.lhsNonContracting by decide)]
  rfl
theorem lhs1 (i : S128x2048.Idx) (q : D.contr.Idx) : (D.lhsIdx i q 1).val = (q ⟨0, by decide⟩).val :=
  D.lhsIdx_val_of_single rfl i q
theorem rhs0 (i : S128x2048.Idx) (q : D.contr.Idx) : (D.rhsIdx i q 0).val = (i 1).val := by
  unfold DotDims.rhsIdx
  rw [dif_neg (show ¬(0 : Fin S2048x256.rank) ∈ D.rhsBatch by decide), dif_pos (show (0 : Fin S2048x256.rank) ∈ D.rhsNonContracting by decide)]
  rfl
theorem rhs1 (i : S128x2048.Idx) (q : D.contr.Idx) : (D.rhsIdx i q 1).val = (q ⟨0, by decide⟩).val :=
  D.rhsIdx_val_of_single rfl i q

/-- The product of the x-block and the transposed chunk of weights into zero, entry (p, q): the inner product of row p
    of the block and row q of the chunk. -/
theorem dot_at (l : FVec Ideal S128x256 .bf16) (r : FVec Ideal S2048x256 .bf16) (p : Fin 128) (q : Fin 2048) :
    matmul (F := Ideal) D none l r (constant (F := Ideal) S128x2048 .f32 0x00000000#32) (ix2 p q) = ∑ k : Fin 256, l (ix2 p k) * r (ix2 q k) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs0 _ _
    | ⟨1, _⟩ => exact (lhs1 _ _).trans hk)
  have er : D.rhsIdx (ix2 p q) ((contrEquiv1 D 256 rfl rfl).symm k) = ix2 q k := funext fun a => Fin.ext (by
    match a with
    | ⟨0, _⟩ => exact rhs0 _ _
    | ⟨1, _⟩ => exact (rhs1 _ _).trans hk)
  rw [el, er]

/-- A row sum over the 256 columns of a [128, 256] block, carried back to [128, 2048] through a column. -/
theorem rowSum256_at (y : FVec Ideal S128x256 .f32) (p : Fin 128) (q : Fin 2048) :
    broadcastTo S128x2048 (shapeCast S128x1 (multiReduction (F := Ideal) .add [1] S128 y 0x00000000#32 reduces_S128x256_S128 (.inl rfl) rfl)
      shapeCasts_S128_S128x1) broadcasts_S128x1_S128x2048 (ix2 p q) = ∑ j : Fin 256, y (ix2 p j) := by
  refine (Cert.Lib.KeepdimsColumn.column_at _ shapeCasts_S128_S128x1 broadcasts_S128x1_S128x2048 p q).trans ?_
  refine (Ideal.multiReduction_add_single y _ reduces_S128x256_S128 (.inl rfl) rfl (ix1 p)).trans ?_
  exact Finset.sum_congr rfl fun j _ => congrArg y (funext fun a => Fin.ext (by
    match a with
    | ⟨0, _⟩ => rfl
    | ⟨1, _⟩ => rfl))

/-- The scores of a chunk at (p, q). -/
theorem pay2_at (v0 : Vec Ideal S128x256 .f32) (W : Vec Ideal S2048x256 .bf16) (w2 : Vec Ideal S1x2048 .f32)
    (p : Fin 128) (q : Fin 2048) :
    k0_pay2 (F := Ideal) v0 W w2 (ix2 p q)
      = Cert.Softmax.score (∑ j : Fin 256, v0 (ix2 p j) * v0 (ix2 p j)) (w2 (ix2 (0 : Fin 1) q))
          (∑ j : Fin 256, v0 (ix2 p j) * W (ix2 q j)) := by
  have hA := rowSum256_at (mulf v0 v0 : FVec Ideal S128x256 .f32) p q
  have hB : broadcastTo S128x2048 (shapeCast S1x2048 w2 shapeCasts_S1x2048_S1x2048) broadcasts_S1x2048_S128x2048 (ix2 p q)
      = w2 (ix2 (0 : Fin 1) q) := by
    rw [shapeCast_self]
    exact broadcastTo_1b_ab_apply w2 broadcasts_S1x2048_S128x2048 p q
  have hC : matmul (F := Ideal) D none (truncf .bf16 v0 bitsLt_bf16_f32 : FVec Ideal S128x256 .bf16) (shapeCast S2048x256 W shapeCasts_S2048x256_S2048x256 : FVec Ideal S2048x256 .bf16)
      (constant (F := Ideal) S128x2048 .f32 0x00000000#32) (ix2 p q) = ∑ j : Fin 256, v0 (ix2 p j) * W (ix2 q j) := by
    rw [shapeCast_self]
    exact dot_at _ _ p q
  have e : k0_pay2 (F := Ideal) v0 W w2 (ix2 p q)
      = Ideal.ofBits .f32 0xC0000000#32 * Ideal.sqrt (max
          ((broadcastTo S128x2048 (shapeCast S128x1 (multiReduction (F := Ideal) .add [1] S128 (mulf v0 v0) 0x00000000#32 reduces_S128x256_S128 (.inl rfl) rfl)
              shapeCasts_S128_S128x1) broadcasts_S128x1_S128x2048 (ix2 p q)
            + broadcastTo S128x2048 (shapeCast S1x2048 w2 shapeCasts_S1x2048_S1x2048) broadcasts_S1x2048_S128x2048 (ix2 p q))
            - Ideal.ofBits .f32 0x40000000#32
              * matmul (F := Ideal) D none (truncf .bf16 v0 bitsLt_bf16_f32 : FVec Ideal S128x256 .bf16) (shapeCast S2048x256 W shapeCasts_S2048x256_S2048x256 : FVec Ideal S2048x256 .bf16)
                  (constant (F := Ideal) S128x2048 .f32 0x00000000#32) (ix2 p q))
          (Ideal.ofBits .f32 0x00000000#32)) := rfl
  rw [e, hA, hB, hC]
  rfl

/-- The running row maximum's first value: −∞. -/
theorem pay1_at (p : Fin 128) : k0_pay1 (F := Ideal) (ix2 p (0 : Fin 1)) = (⊥ : EReal) := by
  have e : k0_pay1 (F := Ideal) (ix2 p (0 : Fin 1)) = Ideal.ofBits .f32 0xFF800000#32 := by
    unfold k0_pay1; rw [shapeCast_self]; rfl
  rw [e, Cert.Lib.MaxReduce.ofBits_neg_inf_f32]

/-- The running row sum's first value: 0. -/
theorem pay4_at (p : Fin 128) : k0_pay4 (F := Ideal) (ix2 p (0 : Fin 1)) = (0 : EReal) := by
  have e : k0_pay4 (F := Ideal) (ix2 p (0 : Fin 1)) = Ideal.ofBits .f32 0x00000000#32 := by
    unfold k0_pay4; rw [shapeCast_self]; rfl
  rw [e, Ideal.ofBits_zero_f32]

/-- A row maximum over the 2048 columns of a chunk, as a column, at (p, 0). -/
theorem rowMax_at (y : FVec Ideal S128x2048 .f32) (p : Fin 128) :
    shapeCast S128x1 (multiReduction (F := Ideal) .maximumf [1] S128 y 0xFF800000#32 reduces_S128x2048_S128 (.inl rfl) rfl)
      shapeCasts_S128_S128x1 (ix2 p (0 : Fin 1)) = ⨆ q : Fin 2048, y (ix2 p q) := by
  refine (Cert.Lib.KeepdimsColumn.column_cast_at _ shapeCasts_S128_S128x1 p).trans ?_
  refine (Cert.Lib.MaxLane.maxReduce_single y reduces_S128x2048_S128 (.inl rfl) rfl (ix1 p)).trans ?_
  exact iSup_congr fun q => congrArg y (funext fun a => Fin.ext (by
    match a with
    | ⟨0, _⟩ => rfl
    | ⟨1, _⟩ => rfl))

/-- The running row maximum after a chunk: the larger of its value before and the chunk's row maximum. -/
theorem pay3_at (v0 : Vec Ideal S128x256 .f32) (W : Vec Ideal S2048x256 .bf16) (w2 : Vec Ideal S1x2048 .f32)
    (m : Vec Ideal S128x1 .f32) (p : Fin 128) :
    k0_pay3 (F := Ideal) v0 W w2 m (ix2 p (0 : Fin 1))
      = max (m (ix2 p (0 : Fin 1))) (⨆ q : Fin 2048, k0_pay2 (F := Ideal) v0 W w2 (ix2 p q)) := by
  have e : k0_pay3 (F := Ideal) v0 W w2 m (ix2 p (0 : Fin 1))
      = max (m (ix2 p (0 : Fin 1)))
          (shapeCast S128x1 (multiReduction (F := Ideal) .maximumf [1] S128 (k0_pay2 (F := Ideal) v0 W w2) 0xFF800000#32 reduces_S128x2048_S128 (.inl rfl) rfl)
            shapeCasts_S128_S128x1 (ix2 p (0 : Fin 1))) := by
    unfold k0_pay3; rw [shapeCast_self]; rfl
  rw [e, rowMax_at]

/-- The exponentials of a chunk at (p, q). -/
theorem pay5_at (S : Vec Ideal S128x2048 .f32) (m : Vec Ideal S128x1 .f32) (p : Fin 128) (q : Fin 2048) :
    k0_pay5 (F := Ideal) S m (ix2 p q) = Ideal.exp (S (ix2 p q) - m (ix2 p (0 : Fin 1))) := by
  have hB := Cert.Lib.KeepdimsColumn.column_broadcast_at m broadcasts_S128x1_S128x2048 p q
  have e : k0_pay5 (F := Ideal) S m (ix2 p q)
      = Ideal.exp (S (ix2 p q) - broadcastTo S128x2048 m broadcasts_S128x1_S128x2048 (ix2 p q)) := by
    unfold k0_pay5; rw [shapeCast_self]; rfl
  rw [e, hB]
  rfl

/-- A row sum over the 2048 columns of a chunk, as a column, at (p, 0). -/
theorem rowSum2048_at (y : FVec Ideal S128x2048 .f32) (p : Fin 128) :
    shapeCast S128x1 (multiReduction (F := Ideal) .add [1] S128 y 0x00000000#32 reduces_S128x2048_S128 (.inl rfl) rfl)
      shapeCasts_S128_S128x1 (ix2 p (0 : Fin 1)) = ∑ q : Fin 2048, y (ix2 p q) := by
  refine (Cert.Lib.KeepdimsColumn.column_cast_at _ shapeCasts_S128_S128x1 p).trans ?_
  refine (Ideal.multiReduction_add_single y _ reduces_S128x2048_S128 (.inl rfl) rfl (ix1 p)).trans ?_
  exact Finset.sum_congr rfl fun q _ => congrArg y (funext fun a => Fin.ext (by
    match a with
    | ⟨0, _⟩ => rfl
    | ⟨1, _⟩ => rfl))

/-- The running row sum after a chunk: its value before plus the chunk's row sum of exponentials. -/
theorem pay6_at (S : Vec Ideal S128x2048 .f32) (m l : Vec Ideal S128x1 .f32) (p : Fin 128) :
    k0_pay6 (F := Ideal) S m l (ix2 p (0 : Fin 1))
      = l (ix2 p (0 : Fin 1)) + ∑ q : Fin 2048, k0_pay5 (F := Ideal) S m (ix2 p q) := by
  have e : k0_pay6 (F := Ideal) S m l (ix2 p (0 : Fin 1))
      = l (ix2 p (0 : Fin 1))
          + shapeCast S128x1 (multiReduction (F := Ideal) .add [1] S128 (k0_pay5 (F := Ideal) S m) 0x00000000#32 reduces_S128x2048_S128 (.inl rfl) rfl)
            shapeCasts_S128_S128x1 (ix2 p (0 : Fin 1)) := by
    unfold k0_pay6; rw [shapeCast_self]; rfl
  rw [e, rowSum2048_at]

/-- The normalised chunk at (p, q). -/
theorem pay7_at (E : Vec Ideal S128x2048 .f32) (l : Vec Ideal S128x1 .f32) (p : Fin 128) (q : Fin 2048) :
    k0_pay7 (F := Ideal) E l (ix2 p q) = Ideal.div (E (ix2 p q)) (l (ix2 p (0 : Fin 1))) := by
  have hB := Cert.Lib.KeepdimsColumn.column_broadcast_at l broadcasts_S128x1_S128x2048 p q
  have e : k0_pay7 (F := Ideal) E l (ix2 p q)
      = Ideal.div (E (ix2 p q)) (broadcastTo S128x2048 l broadcasts_S128x1_S128x2048 (ix2 p q)) := by
    unfold k0_pay7; rw [shapeCast_self]; rfl
  rw [e, hB]
  rfl

end Cert.KernelIdeal.Payloads

end
-- ==== Proof.LibChunkStores.lean ====
/-
  Stores listed by a recursion over chunks, read back.

  A loop that at trip k stores through a rectangle r k, the rectangles of different trips lying in disjoint bands
  [B·k, B·(k+1)) of one axis, lists its stores newest first: P (k+1) = ⟨r k, w k⟩ :: P k. Read through the list,
  an element beyond the bands of the trips made so far still holds what the buffer held on entry (`read_beyond`), and an
  element of band k, once trip k is made, holds that trip's payload at its position, whatever later trips stored
  (`read_band`). A load through a rectangle right after a store through the same rectangle reads the stored value
  (`readAt_cons_same`): what an accumulator kept in a small buffer does at every trip.
-/
import Idealize.ShloMosaic.Lib.Writes
import Idealize.ShloMosaic.Lib.Pipeline.FrameBody

noncomputable section

namespace Cert.Lib.ChunkStores

open Idealize.ShloMosaic

variable {sig : RefSig} {κ : Kind} {sp : Space} {s : Shape} {e : EltTy} {Val : EltTy → Type}
variable (v : View sig κ sp s e) (G : v.ty.Contents Val)

/-- An element beyond the bands of the first n trips holds what the buffer held on entry. -/
theorem read_beyond {T : ℕ} (P : ℕ → List (View.Piece Val s e)) (r : Fin T → Rect s)
    (w : (k : Fin T) → (r k).shape.Idx → Val e) (hP0 : P 0 = [])
    (hP : ∀ k : Fin T, P (k.val + 1) = (⟨r k, w k⟩ : View.Piece Val s e) :: P k.val)
    (a : Fin s.rank) (B : ℕ)
    (hset : ∀ (k : Fin T) (y : s.Idx), y ∈ (r k).set → B * k.val ≤ (y a).val ∧ (y a).val < B * (k.val + 1)) :
    ∀ n, n ≤ T → ∀ y : s.Idx, B * n ≤ (y a).val → v.read Val (v.writes Val G (P n)) y = v.read Val G y
  | 0, _, y, _ => by rw [hP0]; rfl
  | n + 1, hn, y, hy => by
    have hk : n < T := hn
    have e1 : P (n + 1) = (⟨r ⟨n, hk⟩, w ⟨n, hk⟩⟩ : View.Piece Val s e) :: P n := hP ⟨n, hk⟩
    have hnot : y ∉ (Finset.univ : Finset (r ⟨n, hk⟩).shape.Idx).map (r ⟨n, hk⟩).emb := by
      rw [Rect.map_emb_univ]
      intro hm
      have := (hset ⟨n, hk⟩ y hm).2
      exact absurd hy (Nat.not_le.mpr this)
    rw [e1, View.writes_cons, View.read_slice_write_of_not_mem _ _ _ _ hnot]
    exact read_beyond P r w hP0 hP a B hset n (Nat.le_of_succ_le hn) y
      (le_trans (Nat.mul_le_mul_left B (Nat.le_succ n)) hy)

/-- An element of band k, after n > k trips, holds trip k's payload at its position. -/
theorem read_band {T : ℕ} (P : ℕ → List (View.Piece Val s e)) (r : Fin T → Rect s)
    (w : (k : Fin T) → (r k).shape.Idx → Val e)
    (hP : ∀ k : Fin T, P (k.val + 1) = (⟨r k, w k⟩ : View.Piece Val s e) :: P k.val)
    (a : Fin s.rank) (B : ℕ)
    (hset : ∀ (k : Fin T) (y : s.Idx), y ∈ (r k).set → B * k.val ≤ (y a).val ∧ (y a).val < B * (k.val + 1))
    (k : Fin T) (x : (r k).shape.Idx) :
    ∀ n, k.val < n → n ≤ T → v.read Val (v.writes Val G (P n)) ((r k).emb x) = w k x
  | 0, h, _ => absurd h (Nat.not_lt_zero _)
  | n + 1, h, hn => by
    have hk : n < T := hn
    have e1 : P (n + 1) = (⟨r ⟨n, hk⟩, w ⟨n, hk⟩⟩ : View.Piece Val s e) :: P n := hP ⟨n, hk⟩
    by_cases hkn : k.val = n
    · have ek : k = ⟨n, hk⟩ := Fin.ext hkn
      subst ek
      rw [e1]
      exact View.read_writes_cons_emb v G _ _ _ x
    · have hlt : k.val < n := lt_of_le_of_ne (Nat.lt_succ_iff.mp h) hkn
      have hmem : (r k).emb x ∈ (r k).set := by
        rw [← Rect.map_emb_univ]; exact Finset.mem_map_of_mem _ (Finset.mem_univ x)
      have hb := (hset k _ hmem).2
      have hnot : (r k).emb x ∉ (Finset.univ : Finset (r ⟨n, hk⟩).shape.Idx).map (r ⟨n, hk⟩).emb := by
        rw [Rect.map_emb_univ]
        intro hm
        have h1 := (hset ⟨n, hk⟩ _ hm).1
        have h2 : B * (k.val + 1) ≤ B * n := Nat.mul_le_mul_left B hlt
        exact absurd (lt_of_lt_of_le hb h2) (Nat.not_lt.mpr h1)
      rw [e1, View.writes_cons, View.read_slice_write_of_not_mem _ _ _ _ hnot]
      exact read_band P r w hP a B hset k x n hlt (Nat.le_of_succ_le hn)

/-- A load through a rectangle right after a store through it reads the stored value. -/
theorem readAt_cons_same (r : Rect s) (w : r.shape.Idx → Val e) (L : List (View.Piece Val s e)) :
    v.readAt Val r (v.writes Val G ((⟨r, w⟩ : View.Piece Val s e) :: L)) = w :=
  funext fun x => View.read_writes_cons_emb v G r w L x

end Cert.Lib.ChunkStores

end
-- ==== Proof.BodyStores.lean ====
/-
  What the kernel body leaves in its output block, on the extended reals.

  The body works on a block of 128 rows of x (x0), all 16384 rows of the weights (x1) and their squared norms (x2), in
  three loops over eight chunks of 2048 columns of the output block. The first loop stores the scores chunk by chunk and
  keeps the running row maximum in a [128, 1] buffer; the second replaces each chunk of scores by its exponentials
  (score minus the final row maximum) and keeps the running row sum in a second [128, 1] buffer; the third divides
  each chunk by the final row sum. Each loop's stores are listed newest first by a recursion over the trips; reading
  the lists back chunk by chunk gives the block's contents after each loop as a function of the entry (p, j):
  the score s(p, j); then exp(s(p, j) − M_p); then exp(s(p, j) − M_p) / L_p, with M_p the supremum and L_p the sum over
  the row, both accumulated chunk by chunk. The result is the softmax of row p of the scores.
-/
import proofs.«124929_j41137196761280_2_alg».proof.Proof.PatchedIdeal.Frame
import proofs.«124929_j41137196761280_2_alg».proof.Proof.Payloads
import proofs.«124929_j41137196761280_2_alg».proof.Proof.LibChunkStores

set_option maxRecDepth 16384

noncomputable section

namespace Cert.KernelIdeal.Body

open Cert.KernelIdeal Cert.KernelIdeal.Gen Idealize.ShloMosaic Idealize.ShloMosaic.ValueIdx
open Idealize.ShloMosaic.TcCoe Idealize.SL.Sem
open scoped BigOperators

/-- The score of row p of the block against row j of the weights. -/
def rowScore (x0 : Vec Ideal S128x256 .f32) (x1 : Vec Ideal S16384x256 .bf16) (x2 : Vec Ideal S1x16384 .f32) (p : Fin 128)
    (j : Fin 16384) : EReal :=
  Cert.Softmax.score (∑ a : Fin 256, x0 (ix2 p a) * x0 (ix2 p a)) (x2 (ix2 (0 : Fin 1) j))
    (∑ a : Fin 256, x0 (ix2 p a) * x1 (ix2 j a))

theorem trips1 : k0_t1_loop.trips = 8 := by decide
theorem trips2 : k0_t2_loop.trips = 8 := by decide
theorem trips3 : k0_t3_loop.trips = 8 := by decide

/-- An entry of a unit-stride rectangle, by its coordinates. -/
theorem emb_unit {s : Shape} {off off' size : Fin s.rank → ℕ} (inb : ∀ a, off a + size a ≤ s.size a) (heq : off = off')
    (x : (Rect.unit off size inb).shape.Idx) (y : s.Idx) (hx : ∀ a, (y a).val = off' a + (x a).val) :
    (Rect.unit off size inb).emb x = y := by
  subst heq
  exact funext fun a => Fin.ext (by
    show off a + 1 * (x a).val = (y a).val
    rw [hx a, Nat.one_mul])

/-- The band of columns a chunk rectangle lies in. -/
theorem band_of_mem {off : Fin 2 → ℕ} {k : ℕ} (inb : ∀ a, off a + S128x2048.size a ≤ S128x16384.size a)
    (heq : off = ![0, 2048 * k]) (y : S128x16384.Idx) (hy : y ∈ (Rect.unit (s := S128x16384) off S128x2048.size inb).set) :
    2048 * k ≤ (y 1).val ∧ (y 1).val < 2048 * (k + 1) := by
  subst heq
  rw [Rect.mem_set_unit] at hy
  have h1 : 2048 * k ≤ (y 1).val ∧ (y 1).val < 2048 * k + 2048 := hy 1
  exact ⟨h1.1, by rw [Nat.mul_succ]; exact h1.2⟩

section
variable (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole)

/-! ## One trip of each loop: what it stores -/

theorem trip1_eq (v0 : Vec Ideal S128x256 .f32) (X2 : BufTy.Contents (Elt Ideal) arg2.view.ty) (X3 : BufTy.Contents (Elt Ideal) arg3.view.ty)
    (k : Fin k0_t1_loop.trips) (f4 : BufTy.Contents (Elt Ideal) arg4.view.ty) (f5 : BufTy.Contents (Elt Ideal) arg5.view.ty) :
    tripL_k0_t1 (F := Ideal) Variants.none c none i arg1 harg1 arg2 harg2 arg3 harg3 arg4 harg4 arg5 harg5 arg6 harg6 v0 X2 X3 k f4 f5
      = ([⟨(Rect.unit (s := S128x16384) (k0_off3 k) S128x2048.size (k0_off3_inb k)),
            k0_pay2 (F := Ideal) v0
              (View.readAt (Elt Ideal) arg2.view (Rect.unit (s := S16384x256) (k0_off1 k) S2048x256.size (k0_off1_inb k)).toLoadRect X2)
              (View.readAt (Elt Ideal) arg3.view (Rect.unit (s := S1x16384) (k0_off2 k) S1x2048.size (k0_off2_inb k)).toLoadRect X3)⟩],
         [⟨(Rect.unit (s := S128x1) ![0, 0] S128x1.size inb_S128x1_S128x1_0_0),
            k0_pay3 (F := Ideal) v0
              (View.readAt (Elt Ideal) arg2.view (Rect.unit (s := S16384x256) (k0_off1 k) S2048x256.size (k0_off1_inb k)).toLoadRect X2)
              (View.readAt (Elt Ideal) arg3.view (Rect.unit (s := S1x16384) (k0_off2 k) S1x2048.size (k0_off2_inb k)).toLoadRect X3)
              (View.readAt (Elt Ideal) arg5.view (Rect.unit (s := S128x1) ![0, 0] S128x1.size inb_S128x1_S128x1_0_0).toLoadRect f5)⟩]) := by
  unfold tripL_k0_t1 trip_k0_t1
  rfl

theorem trip2_eq (X5 : BufTy.Contents (Elt Ideal) arg5.view.ty) (k : Fin k0_t2_loop.trips)
    (f4 : BufTy.Contents (Elt Ideal) arg4.view.ty) (f6 : BufTy.Contents (Elt Ideal) arg6.view.ty) :
    tripL_k0_t2 (F := Ideal) Variants.none c none i arg1 harg1 arg2 harg2 arg3 harg3 arg4 harg4 arg5 harg5 arg6 harg6 X5 k f4 f6
      = ([⟨(Rect.unit (s := S128x16384) (k0_off4 k) S128x2048.size (k0_off4_inb k)),
            k0_pay5 (F := Ideal)
              (View.readAt (Elt Ideal) arg4.view (Rect.unit (s := S128x16384) (k0_off4 k) S128x2048.size (k0_off4_inb k)).toLoadRect f4)
              (View.readAt (Elt Ideal) arg5.view (Rect.unit (s := S128x1) ![0, 0] S128x1.size inb_S128x1_S128x1_0_0).toLoadRect X5)⟩],
         [⟨(Rect.unit (s := S128x1) ![0, 0] S128x1.size inb_S128x1_S128x1_0_0),
            k0_pay6 (F := Ideal)
              (View.readAt (Elt Ideal) arg4.view (Rect.unit (s := S128x16384) (k0_off4 k) S128x2048.size (k0_off4_inb k)).toLoadRect f4)
              (View.readAt (Elt Ideal) arg5.view (Rect.unit (s := S128x1) ![0, 0] S128x1.size inb_S128x1_S128x1_0_0).toLoadRect X5)
              (View.readAt (Elt Ideal) arg6.view (Rect.unit (s := S128x1) ![0, 0] S128x1.size inb_S128x1_S128x1_0_0).toLoadRect f6)⟩]) := by
  unfold tripL_k0_t2 trip_k0_t2
  rfl

theorem trip3_eq (X6 : BufTy.Contents (Elt Ideal) arg6.view.ty) (k : Fin k0_t3_loop.trips)
    (f4 : BufTy.Contents (Elt Ideal) arg4.view.ty) :
    tripL_k0_t3 (F := Ideal) Variants.none c none i arg1 harg1 arg2 harg2 arg3 harg3 arg4 harg4 arg5 harg5 arg6 harg6 X6 k f4
      = [⟨(Rect.unit (s := S128x16384) (k0_off5 k) S128x2048.size (k0_off5_inb k)),
            k0_pay7 (F := Ideal)
              (View.readAt (Elt Ideal) arg4.view (Rect.unit (s := S128x16384) (k0_off5 k) S128x2048.size (k0_off5_inb k)).toLoadRect f4)
              (View.readAt (Elt Ideal) arg6.view (Rect.unit (s := S128x1) ![0, 0] S128x1.size inb_S128x1_S128x1_0_0).toLoadRect X6)⟩] := by
  unfold tripL_k0_t3 trip_k0_t3
  rfl

end

/-! ## The buffers' contents along the body -/

/-- The block of x as the body loads it. -/
def V0 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : Vec Ideal S128x256 .f32 :=
  View.readAt (Elt Ideal) arg1.view (Rect.unit (s := S128x256) ![0, 0] S128x256.size inb_S128x256_S128x256_0_0).toLoadRect (harg1.unread x0)
/-- The running-maximum buffer on entry to the first loop: just set to −∞. -/
def G5 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : BufTy.Contents (Elt Ideal) arg5.view.ty :=
  arg5.view.writes (Elt Ideal) arg5.view.junk GenP.kernelRun0_A.sl.HS0_1
/-- The stores of the first n trips of the first loop, into the output block and into the running-maximum buffer. -/
def PB1 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (n : ℕ) : List (View.Piece (Elt Ideal) S128x16384 .f32) × List (View.Piece (Elt Ideal) S128x1 .f32) :=
  pb_k0_t1 (F := Ideal) Variants.none c none i arg1 harg1 arg2 harg2 arg3 harg3 arg4 harg4 arg5 harg5 arg6 harg6 (V0 c i arg1 harg1 arg2 harg2 arg3 harg3 arg4 harg4 arg5 harg5 arg6 harg6 x0 x1 x2) (harg2.unread x1) (harg3.unread x2) arg4.view.junk (G5 c i arg1 harg1 arg2 harg2 arg3 harg3 arg4 harg4 arg5 harg5 arg6 harg6 x0 x1 x2) n
/-- The output block after the first loop. -/
def C1 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : BufTy.Contents (Elt Ideal) arg4.view.ty :=
  arg4.view.writes (Elt Ideal) arg4.view.junk (PB1 c i arg1 harg1 arg2 harg2 arg3 harg3 arg4 harg4 arg5 harg5 arg6 harg6 x0 x1 x2 k0_t1_loop.trips).1
/-- The running-maximum buffer after the first loop. -/
def X5 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : BufTy.Contents (Elt Ideal) arg5.view.ty :=
  arg5.view.writes (Elt Ideal) arg5.view.junk ((PB1 c i arg1 harg1 arg2 harg2 arg3 harg3 arg4 harg4 arg5 harg5 arg6 harg6 x0 x1 x2 k0_t1_loop.trips).2 ++ GenP.kernelRun0_A.sl.HS0_1)
/-- The running-sum buffer on entry to the second loop: just set to 0. -/
def G6 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : BufTy.Contents (Elt Ideal) arg6.view.ty :=
  arg6.view.writes (Elt Ideal) arg6.view.junk GenP.kernelRun0_A.sl.HS1_1
/-- The stores of the first n trips of the second loop. -/
def PB2 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (n : ℕ) : List (View.Piece (Elt Ideal) S128x16384 .f32) × List (View.Piece (Elt Ideal) S128x1 .f32) :=
  pb_k0_t2 (F := Ideal) Variants.none c none i arg1 harg1 arg2 harg2 arg3 harg3 arg4 harg4 arg5 harg5 arg6 harg6 (X5 c i arg1 harg1 arg2 harg2 arg3 harg3 arg4 harg4 arg5 harg5 arg6 harg6 x0 x1 x2) (C1 c i arg1 harg1 arg2 harg2 arg3 harg3 arg4 harg4 arg5 harg5 arg6 harg6 x0 x1 x2) (G6 c i arg1 harg1 arg2 harg2 arg3 harg3 arg4 harg4 arg5 harg5 arg6 harg6 x0 x1 x2) n
/-- The running-sum buffer after the second loop. -/
def X6 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : BufTy.Contents (Elt Ideal) arg6.view.ty :=
  arg6.view.writes (Elt Ideal) arg6.view.junk ((PB2 c i arg1 harg1 arg2 harg2 arg3 harg3 arg4 harg4 arg5 harg5 arg6 harg6 x0 x1 x2 k0_t2_loop.trips).2 ++ GenP.kernelRun0_A.sl.HS1_1)
/-- The output block after the second loop. -/
def C2 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : BufTy.Contents (Elt Ideal) arg4.view.ty :=
  arg4.view.writes (Elt Ideal) arg4.view.junk ((PB2 c i arg1 harg1 arg2 harg2 arg3 harg3 arg4 harg4 arg5 harg5 arg6 harg6 x0 x1 x2 k0_t2_loop.trips).1 ++ (PB1 c i arg1 harg1 arg2 harg2 arg3 harg3 arg4 harg4 arg5 harg5 arg6 harg6 x0 x1 x2 k0_t1_loop.trips).1)
/-- The stores of the first n trips of the third loop. -/
def PB3 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (n : ℕ) : List (View.Piece (Elt Ideal) S128x16384 .f32) :=
  pb_k0_t3 (F := Ideal) Variants.none c none i arg1 harg1 arg2 harg2 arg3 harg3 arg4 harg4 arg5 harg5 arg6 harg6 (X6 c i arg1 harg1 arg2 harg2 arg3 harg3 arg4 harg4 arg5 harg5 arg6 harg6 x0 x1 x2) (C2 c i arg1 harg1 arg2 harg2 arg3 harg3 arg4 harg4 arg5 harg5 arg6 harg6 x0 x1 x2) n

/-- The body's stores into the output block are those of the three loops. -/
theorem run_pieces (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) :
    (GenP.kernelRun0_A (F := Ideal) c i arg1 harg1 arg2 harg2 arg3 harg3 arg4 harg4 arg5 harg5 arg6 harg6 x0 x1 x2).1
      = PB3 c i arg1 harg1 arg2 harg2 arg3 harg3 arg4 harg4 arg5 harg5 arg6 harg6 x0 x1 x2 k0_t3_loop.trips ++ ((PB2 c i arg1 harg1 arg2 harg2 arg3 harg3 arg4 harg4 arg5 harg5 arg6 harg6 x0 x1 x2 k0_t2_loop.trips).1 ++ (PB1 c i arg1 harg1 arg2 harg2 arg3 harg3 arg4 harg4 arg5 harg5 arg6 harg6 x0 x1 x2 k0_t1_loop.trips).1) := by
  unfold GenP.kernelRun0_A
  rfl

theorem C2_eq (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : C2 c i arg1 harg1 arg2 harg2 arg3 harg3 arg4 harg4 arg5 harg5 arg6 harg6 x0 x1 x2 = arg4.view.writes (Elt Ideal) (C1 c i arg1 harg1 arg2 harg2 arg3 harg3 arg4 harg4 arg5 harg5 arg6 harg6 x0 x1 x2) (PB2 c i arg1 harg1 arg2 harg2 arg3 harg3 arg4 harg4 arg5 harg5 arg6 harg6 x0 x1 x2 k0_t2_loop.trips).1 :=
  View.writes_append _ _ _ _

/-- The chunk of weights and of squared norms trip k of the first loop loads. -/
def ldW (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t1_loop.trips) : Vec Ideal S2048x256 .bf16 :=
  View.readAt (Elt Ideal) arg2.view (Rect.unit (s := S16384x256) (k0_off1 k) S2048x256.size (k0_off1_inb k)).toLoadRect (harg2.unread x1)
def ldw2 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t1_loop.trips) : Vec Ideal S1x2048 .f32 :=
  View.readAt (Elt Ideal) arg3.view (Rect.unit (s := S1x16384) (k0_off2 k) S1x2048.size (k0_off2_inb k)).toLoadRect (harg3.unread x2)
/-- The running maximum after n trips of the first loop; the running sum after n trips of the second. -/
def mAt (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (n : ℕ) : Vec Ideal S128x1 .f32 :=
  View.readAt (Elt Ideal) arg5.view (Rect.unit (s := S128x1) ![0, 0] S128x1.size inb_S128x1_S128x1_0_0).toLoadRect (arg5.view.writes (Elt Ideal) (G5 c i arg1 harg1 arg2 harg2 arg3 harg3 arg4 harg4 arg5 harg5 arg6 harg6 x0 x1 x2) (PB1 c i arg1 harg1 arg2 harg2 arg3 harg3 arg4 harg4 arg5 harg5 arg6 harg6 x0 x1 x2 n).2)
def lAt (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (n : ℕ) : Vec Ideal S128x1 .f32 :=
  View.readAt (Elt Ideal) arg6.view (Rect.unit (s := S128x1) ![0, 0] S128x1.size inb_S128x1_S128x1_0_0).toLoadRect (arg6.view.writes (Elt Ideal) (G6 c i arg1 harg1 arg2 harg2 arg3 harg3 arg4 harg4 arg5 harg5 arg6 harg6 x0 x1 x2) (PB2 c i arg1 harg1 arg2 harg2 arg3 harg3 arg4 harg4 arg5 harg5 arg6 harg6 x0 x1 x2 n).2)
/-- The final row maximum and row sum, as the later loops load them. -/
def mFin (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : Vec Ideal S128x1 .f32 := View.readAt (Elt Ideal) arg5.view (Rect.unit (s := S128x1) ![0, 0] S128x1.size inb_S128x1_S128x1_0_0).toLoadRect (X5 c i arg1 harg1 arg2 harg2 arg3 harg3 arg4 harg4 arg5 harg5 arg6 harg6 x0 x1 x2)
def lFin (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : Vec Ideal S128x1 .f32 := View.readAt (Elt Ideal) arg6.view (Rect.unit (s := S128x1) ![0, 0] S128x1.size inb_S128x1_S128x1_0_0).toLoadRect (X6 c i arg1 harg1 arg2 harg2 arg3 harg3 arg4 harg4 arg5 harg5 arg6 harg6 x0 x1 x2)
/-- The chunk of the output block trip k of the second loop loads, and trip k of the third. -/
def sIn (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t2_loop.trips) : Vec Ideal S128x2048 .f32 :=
  View.readAt (Elt Ideal) arg4.view (Rect.unit (s := S128x16384) (k0_off4 k) S128x2048.size (k0_off4_inb k)).toLoadRect (arg4.view.writes (Elt Ideal) (C1 c i arg1 harg1 arg2 harg2 arg3 harg3 arg4 harg4 arg5 harg5 arg6 harg6 x0 x1 x2) (PB2 c i arg1 harg1 arg2 harg2 arg3 harg3 arg4 harg4 arg5 harg5 arg6 harg6 x0 x1 x2 k.val).1)
def eIn (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t3_loop.trips) : Vec Ideal S128x2048 .f32 :=
  View.readAt (Elt Ideal) arg4.view (Rect.unit (s := S128x16384) (k0_off5 k) S128x2048.size (k0_off5_inb k)).toLoadRect (arg4.view.writes (Elt Ideal) (C2 c i arg1 harg1 arg2 harg2 arg3 harg3 arg4 harg4 arg5 harg5 arg6 harg6 x0 x1 x2) (PB3 c i arg1 harg1 arg2 harg2 arg3 harg3 arg4 harg4 arg5 harg5 arg6 harg6 x0 x1 x2 k.val))

/-! ## The lists of stores, one trip at a time -/

theorem PB1_succ (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t1_loop.trips) :
    PB1 c i arg1 harg1 arg2 harg2 arg3 harg3 arg4 harg4 arg5 harg5 arg6 harg6 x0 x1 x2 (k.val + 1)
      = ((⟨(Rect.unit (s := S128x16384) (k0_off3 k) S128x2048.size (k0_off3_inb k)), k0_pay2 (F := Ideal) (V0 c i arg1 harg1 arg2 harg2 arg3 harg3 arg4 harg4 arg5 harg5 arg6 harg6 x0 x1 x2) (ldW c i arg1 harg1 arg2 harg2 arg3 harg3 arg4 harg4 arg5 harg5 arg6 harg6 x0 x1 x2 k) (ldw2 c i arg1 harg1 arg2 harg2 arg3 harg3 arg4 harg4 arg5 harg5 arg6 harg6 x0 x1 x2 k)⟩ : View.Piece (Elt Ideal) S128x16384 .f32) :: (PB1 c i arg1 harg1 arg2 harg2 arg3 harg3 arg4 harg4 arg5 harg5 arg6 harg6 x0 x1 x2 k.val).1,
         (⟨(Rect.unit (s := S128x1) ![0, 0] S128x1.size inb_S128x1_S128x1_0_0), k0_pay3 (F := Ideal) (V0 c i arg1 harg1 arg2 harg2 arg3 harg3 arg4 harg4 arg5 harg5 arg6 harg6 x0 x1 x2) (ldW c i arg1 harg1 arg2 harg2 arg3 harg3 arg4 harg4 arg5 harg5 arg6 harg6 x0 x1 x2 k) (ldw2 c i arg1 harg1 arg2 harg2 arg3 harg3 arg4 harg4 arg5 harg5 arg6 harg6 x0 x1 x2 k) (mAt c i arg1 harg1 arg2 harg2 arg3 harg3 arg4 harg4 arg5 harg5 arg6 harg6 x0 x1 x2 k.val)⟩ : View.Piece (Elt Ideal) S128x1 .f32) :: (PB1 c i arg1 harg1 arg2 harg2 arg3 harg3 arg4 harg4 arg5 harg5 arg6 harg6 x0 x1 x2 k.val).2) := by
  unfold PB1
  rw [pb_k0_t1_succ, trip1_eq]
  rfl

theorem PB2_succ (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t2_loop.trips) :
    PB2 c i arg1 harg1 arg2 harg2 arg3 harg3 arg4 harg4 arg5 harg5 arg6 harg6 x0 x1 x2 (k.val + 1)
      = ((⟨(Rect.unit (s := S128x16384) (k0_off4 k) S128x2048.size (k0_off4_inb k)), k0_pay5 (F := Ideal) (sIn c i arg1 harg1 arg2 harg2 arg3 harg3 arg4 harg4 arg5 harg5 arg6 harg6 x0 x1 x2 k) (mFin c i arg1 harg1 arg2 harg2 arg3 harg3 arg4 harg4 arg5 harg5 arg6 harg6 x0 x1 x2)⟩ : View.Piece (Elt Ideal) S128x16384 .f32) :: (PB2 c i arg1 harg1 arg2 harg2 arg3 harg3 arg4 harg4 arg5 harg5 arg6 harg6 x0 x1 x2 k.val).1,
         (⟨(Rect.unit (s := S128x1) ![0, 0] S128x1.size inb_S128x1_S128x1_0_0), k0_pay6 (F := Ideal) (sIn c i arg1 harg1 arg2 harg2 arg3 harg3 arg4 harg4 arg5 harg5 arg6 harg6 x0 x1 x2 k) (mFin c i arg1 harg1 arg2 harg2 arg3 harg3 arg4 harg4 arg5 harg5 arg6 harg6 x0 x1 x2) (lAt c i arg1 harg1 arg2 harg2 arg3 harg3 arg4 harg4 arg5 harg5 arg6 harg6 x0 x1 x2 k.val)⟩ : View.Piece (Elt Ideal) S128x1 .f32) :: (PB2 c i arg1 harg1 arg2 harg2 arg3 harg3 arg4 harg4 arg5 harg5 arg6 harg6 x0 x1 x2 k.val).2) := by
  unfold PB2
  rw [pb_k0_t2_succ, trip2_eq]
  rfl

theorem PB3_succ (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t3_loop.trips) :
    PB3 c i arg1 harg1 arg2 harg2 arg3 harg3 arg4 harg4 arg5 harg5 arg6 harg6 x0 x1 x2 (k.val + 1)
      = (⟨(Rect.unit (s := S128x16384) (k0_off5 k) S128x2048.size (k0_off5_inb k)), k0_pay7 (F := Ideal) (eIn c i arg1 harg1 arg2 harg2 arg3 harg3 arg4 harg4 arg5 harg5 arg6 harg6 x0 x1 x2 k) (lFin c i arg1 harg1 arg2 harg2 arg3 harg3 arg4 harg4 arg5 harg5 arg6 harg6 x0 x1 x2)⟩ : View.Piece (Elt Ideal) S128x16384 .f32) :: PB3 c i arg1 harg1 arg2 harg2 arg3 harg3 arg4 harg4 arg5 harg5 arg6 harg6 x0 x1 x2 k.val := by
  unfold PB3
  rw [pb_k0_t3_succ, trip3_eq]
  rfl

/-! ## The two small buffers -/

theorem mAt_zero (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : mAt c i arg1 harg1 arg2 harg2 arg3 harg3 arg4 harg4 arg5 harg5 arg6 harg6 x0 x1 x2 0 = k0_pay1 (F := Ideal) := by
  show View.readAt (Elt Ideal) arg5.view (Rect.unit (s := S128x1) ![0, 0] S128x1.size inb_S128x1_S128x1_0_0).toLoadRect
    (arg5.view.writes (Elt Ideal) arg5.view.junk [(⟨(Rect.unit (s := S128x1) ![0, 0] S128x1.size inb_S128x1_S128x1_0_0), k0_pay1 (F := Ideal)⟩ : View.Piece (Elt Ideal) S128x1 .f32)]) = _
  exact Cert.Lib.ChunkStores.readAt_cons_same (Val := Elt Ideal) arg5.view arg5.view.junk (Rect.unit (s := S128x1) ![0, 0] S128x1.size inb_S128x1_S128x1_0_0) _ []

theorem mAt_succ (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t1_loop.trips) :
    mAt c i arg1 harg1 arg2 harg2 arg3 harg3 arg4 harg4 arg5 harg5 arg6 harg6 x0 x1 x2 (k.val + 1) = k0_pay3 (F := Ideal) (V0 c i arg1 harg1 arg2 harg2 arg3 harg3 arg4 harg4 arg5 harg5 arg6 harg6 x0 x1 x2) (ldW c i arg1 harg1 arg2 harg2 arg3 harg3 arg4 harg4 arg5 harg5 arg6 harg6 x0 x1 x2 k) (ldw2 c i arg1 harg1 arg2 harg2 arg3 harg3 arg4 harg4 arg5 harg5 arg6 harg6 x0 x1 x2 k) (mAt c i arg1 harg1 arg2 harg2 arg3 harg3 arg4 harg4 arg5 harg5 arg6 harg6 x0 x1 x2 k.val) := by
  unfold mAt
  rw [PB1_succ]
  exact Cert.Lib.ChunkStores.readAt_cons_same arg5.view _ _ _ _

theorem mFin_eq (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : mFin c i arg1 harg1 arg2 harg2 arg3 harg3 arg4 harg4 arg5 harg5 arg6 harg6 x0 x1 x2 = mAt c i arg1 harg1 arg2 harg2 arg3 harg3 arg4 harg4 arg5 harg5 arg6 harg6 x0 x1 x2 k0_t1_loop.trips := by
  unfold mFin mAt X5 G5
  rw [View.writes_append]

theorem lAt_zero (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : lAt c i arg1 harg1 arg2 harg2 arg3 harg3 arg4 harg4 arg5 harg5 arg6 harg6 x0 x1 x2 0 = k0_pay4 (F := Ideal) := by
  show View.readAt (Elt Ideal) arg6.view (Rect.unit (s := S128x1) ![0, 0] S128x1.size inb_S128x1_S128x1_0_0).toLoadRect
    (arg6.view.writes (Elt Ideal) arg6.view.junk [(⟨(Rect.unit (s := S128x1) ![0, 0] S128x1.size inb_S128x1_S128x1_0_0), k0_pay4 (F := Ideal)⟩ : View.Piece (Elt Ideal) S128x1 .f32)]) = _
  exact Cert.Lib.ChunkStores.readAt_cons_same (Val := Elt Ideal) arg6.view arg6.view.junk (Rect.unit (s := S128x1) ![0, 0] S128x1.size inb_S128x1_S128x1_0_0) _ []

theorem lAt_succ (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t2_loop.trips) :
    lAt c i arg1 harg1 arg2 harg2 arg3 harg3 arg4 harg4 arg5 harg5 arg6 harg6 x0 x1 x2 (k.val + 1) = k0_pay6 (F := Ideal) (sIn c i arg1 harg1 arg2 harg2 arg3 harg3 arg4 harg4 arg5 harg5 arg6 harg6 x0 x1 x2 k) (mFin c i arg1 harg1 arg2 harg2 arg3 harg3 arg4 harg4 arg5 harg5 arg6 harg6 x0 x1 x2) (lAt c i arg1 harg1 arg2 harg2 arg3 harg3 arg4 harg4 arg5 harg5 arg6 harg6 x0 x1 x2 k.val) := by
  unfold lAt
  rw [PB2_succ]
  exact Cert.Lib.ChunkStores.readAt_cons_same arg6.view _ _ _ _

theorem lFin_eq (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : lFin c i arg1 harg1 arg2 harg2 arg3 harg3 arg4 harg4 arg5 harg5 arg6 harg6 x0 x1 x2 = lAt c i arg1 harg1 arg2 harg2 arg3 harg3 arg4 harg4 arg5 harg5 arg6 harg6 x0 x1 x2 k0_t2_loop.trips := by
  unfold lFin lAt X6 G6
  rw [View.writes_append]

/-! ## The output block, chunk by chunk -/

theorem band3 (k : Fin k0_t1_loop.trips) (y : S128x16384.Idx) (hy : y ∈ (Rect.unit (s := S128x16384) (k0_off3 k) S128x2048.size (k0_off3_inb k)).set) :
    2048 * k.val ≤ (y 1).val ∧ (y 1).val < 2048 * (k.val + 1) := band_of_mem _ (k0_off3_eq k) y hy
theorem band4 (k : Fin k0_t2_loop.trips) (y : S128x16384.Idx) (hy : y ∈ (Rect.unit (s := S128x16384) (k0_off4 k) S128x2048.size (k0_off4_inb k)).set) :
    2048 * k.val ≤ (y 1).val ∧ (y 1).val < 2048 * (k.val + 1) := band_of_mem _ (k0_off4_eq k) y hy
theorem band5 (k : Fin k0_t3_loop.trips) (y : S128x16384.Idx) (hy : y ∈ (Rect.unit (s := S128x16384) (k0_off5 k) S128x2048.size (k0_off5_inb k)).set) :
    2048 * k.val ≤ (y 1).val ∧ (y 1).val < 2048 * (k.val + 1) := band_of_mem _ (k0_off5_eq k) y hy

/-- After the first loop, chunk k of the output block holds the scores trip k stored. -/
theorem C1_chunk (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t1_loop.trips) (x : (Rect.unit (s := S128x16384) (k0_off3 k) S128x2048.size (k0_off3_inb k)).shape.Idx) :
    arg4.view.read (Elt Ideal) (C1 c i arg1 harg1 arg2 harg2 arg3 harg3 arg4 harg4 arg5 harg5 arg6 harg6 x0 x1 x2) ((Rect.unit (s := S128x16384) (k0_off3 k) S128x2048.size (k0_off3_inb k)).emb x) = k0_pay2 (F := Ideal) (V0 c i arg1 harg1 arg2 harg2 arg3 harg3 arg4 harg4 arg5 harg5 arg6 harg6 x0 x1 x2) (ldW c i arg1 harg1 arg2 harg2 arg3 harg3 arg4 harg4 arg5 harg5 arg6 harg6 x0 x1 x2 k) (ldw2 c i arg1 harg1 arg2 harg2 arg3 harg3 arg4 harg4 arg5 harg5 arg6 harg6 x0 x1 x2 k) x :=
  Cert.Lib.ChunkStores.read_band arg4.view arg4.view.junk (fun n => (PB1 c i arg1 harg1 arg2 harg2 arg3 harg3 arg4 harg4 arg5 harg5 arg6 harg6 x0 x1 x2 n).1)
    (fun k : Fin k0_t1_loop.trips => (Rect.unit (s := S128x16384) (k0_off3 k) S128x2048.size (k0_off3_inb k))) (fun k => k0_pay2 (F := Ideal) (V0 c i arg1 harg1 arg2 harg2 arg3 harg3 arg4 harg4 arg5 harg5 arg6 harg6 x0 x1 x2) (ldW c i arg1 harg1 arg2 harg2 arg3 harg3 arg4 harg4 arg5 harg5 arg6 harg6 x0 x1 x2 k) (ldw2 c i arg1 harg1 arg2 harg2 arg3 harg3 arg4 harg4 arg5 harg5 arg6 harg6 x0 x1 x2 k))
    (fun k => congrArg Prod.fst (PB1_succ c i arg1 harg1 arg2 harg2 arg3 harg3 arg4 harg4 arg5 harg5 arg6 harg6 x0 x1 x2 k)) 1 2048 band3 k x k0_t1_loop.trips k.isLt le_rfl

/-- What trip k of the second loop loads is still what the first loop left in chunk k. -/
theorem sIn_eq (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t2_loop.trips) (x : (Rect.unit (s := S128x16384) (k0_off4 k) S128x2048.size (k0_off4_inb k)).shape.Idx) :
    sIn c i arg1 harg1 arg2 harg2 arg3 harg3 arg4 harg4 arg5 harg5 arg6 harg6 x0 x1 x2 k x = arg4.view.read (Elt Ideal) (C1 c i arg1 harg1 arg2 harg2 arg3 harg3 arg4 harg4 arg5 harg5 arg6 harg6 x0 x1 x2) ((Rect.unit (s := S128x16384) (k0_off4 k) S128x2048.size (k0_off4_inb k)).emb x) := by
  have hmem : (Rect.unit (s := S128x16384) (k0_off4 k) S128x2048.size (k0_off4_inb k)).emb x ∈ (Rect.unit (s := S128x16384) (k0_off4 k) S128x2048.size (k0_off4_inb k)).set := by
    rw [← Rect.map_emb_univ]; exact Finset.mem_map_of_mem _ (Finset.mem_univ x)
  exact Cert.Lib.ChunkStores.read_beyond arg4.view (C1 c i arg1 harg1 arg2 harg2 arg3 harg3 arg4 harg4 arg5 harg5 arg6 harg6 x0 x1 x2) (fun n => (PB2 c i arg1 harg1 arg2 harg2 arg3 harg3 arg4 harg4 arg5 harg5 arg6 harg6 x0 x1 x2 n).1)
    (fun k : Fin k0_t2_loop.trips => (Rect.unit (s := S128x16384) (k0_off4 k) S128x2048.size (k0_off4_inb k))) (fun k => k0_pay5 (F := Ideal) (sIn c i arg1 harg1 arg2 harg2 arg3 harg3 arg4 harg4 arg5 harg5 arg6 harg6 x0 x1 x2 k) (mFin c i arg1 harg1 arg2 harg2 arg3 harg3 arg4 harg4 arg5 harg5 arg6 harg6 x0 x1 x2)) rfl
    (fun k => congrArg Prod.fst (PB2_succ c i arg1 harg1 arg2 harg2 arg3 harg3 arg4 harg4 arg5 harg5 arg6 harg6 x0 x1 x2 k)) 1 2048 band4 k.val (Nat.le_of_lt k.isLt) _ (band4 k _ hmem).1

/-- After the second loop, chunk k of the output block holds the exponentials trip k stored. -/
theorem C2_chunk (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t2_loop.trips) (x : (Rect.unit (s := S128x16384) (k0_off4 k) S128x2048.size (k0_off4_inb k)).shape.Idx) :
    arg4.view.read (Elt Ideal) (C2 c i arg1 harg1 arg2 harg2 arg3 harg3 arg4 harg4 arg5 harg5 arg6 harg6 x0 x1 x2) ((Rect.unit (s := S128x16384) (k0_off4 k) S128x2048.size (k0_off4_inb k)).emb x) = k0_pay5 (F := Ideal) (sIn c i arg1 harg1 arg2 harg2 arg3 harg3 arg4 harg4 arg5 harg5 arg6 harg6 x0 x1 x2 k) (mFin c i arg1 harg1 arg2 harg2 arg3 harg3 arg4 harg4 arg5 harg5 arg6 harg6 x0 x1 x2) x := by
  rw [C2_eq]
  exact Cert.Lib.ChunkStores.read_band arg4.view (C1 c i arg1 harg1 arg2 harg2 arg3 harg3 arg4 harg4 arg5 harg5 arg6 harg6 x0 x1 x2) (fun n => (PB2 c i arg1 harg1 arg2 harg2 arg3 harg3 arg4 harg4 arg5 harg5 arg6 harg6 x0 x1 x2 n).1)
    (fun k : Fin k0_t2_loop.trips => (Rect.unit (s := S128x16384) (k0_off4 k) S128x2048.size (k0_off4_inb k))) (fun k => k0_pay5 (F := Ideal) (sIn c i arg1 harg1 arg2 harg2 arg3 harg3 arg4 harg4 arg5 harg5 arg6 harg6 x0 x1 x2 k) (mFin c i arg1 harg1 arg2 harg2 arg3 harg3 arg4 harg4 arg5 harg5 arg6 harg6 x0 x1 x2))
    (fun k => congrArg Prod.fst (PB2_succ c i arg1 harg1 arg2 harg2 arg3 harg3 arg4 harg4 arg5 harg5 arg6 harg6 x0 x1 x2 k)) 1 2048 band4 k x k0_t2_loop.trips k.isLt le_rfl

/-- What trip k of the third loop loads is still what the second loop left in chunk k. -/
theorem eIn_eq (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t3_loop.trips) (x : (Rect.unit (s := S128x16384) (k0_off5 k) S128x2048.size (k0_off5_inb k)).shape.Idx) :
    eIn c i arg1 harg1 arg2 harg2 arg3 harg3 arg4 harg4 arg5 harg5 arg6 harg6 x0 x1 x2 k x = arg4.view.read (Elt Ideal) (C2 c i arg1 harg1 arg2 harg2 arg3 harg3 arg4 harg4 arg5 harg5 arg6 harg6 x0 x1 x2) ((Rect.unit (s := S128x16384) (k0_off5 k) S128x2048.size (k0_off5_inb k)).emb x) := by
  have hmem : (Rect.unit (s := S128x16384) (k0_off5 k) S128x2048.size (k0_off5_inb k)).emb x ∈ (Rect.unit (s := S128x16384) (k0_off5 k) S128x2048.size (k0_off5_inb k)).set := by
    rw [← Rect.map_emb_univ]; exact Finset.mem_map_of_mem _ (Finset.mem_univ x)
  exact Cert.Lib.ChunkStores.read_beyond arg4.view (C2 c i arg1 harg1 arg2 harg2 arg3 harg3 arg4 harg4 arg5 harg5 arg6 harg6 x0 x1 x2) (fun n => PB3 c i arg1 harg1 arg2 harg2 arg3 harg3 arg4 harg4 arg5 harg5 arg6 harg6 x0 x1 x2 n)
    (fun k : Fin k0_t3_loop.trips => (Rect.unit (s := S128x16384) (k0_off5 k) S128x2048.size (k0_off5_inb k))) (fun k => k0_pay7 (F := Ideal) (eIn c i arg1 harg1 arg2 harg2 arg3 harg3 arg4 harg4 arg5 harg5 arg6 harg6 x0 x1 x2 k) (lFin c i arg1 harg1 arg2 harg2 arg3 harg3 arg4 harg4 arg5 harg5 arg6 harg6 x0 x1 x2)) rfl
    (fun k => PB3_succ c i arg1 harg1 arg2 harg2 arg3 harg3 arg4 harg4 arg5 harg5 arg6 harg6 x0 x1 x2 k) 1 2048 band5 k.val (Nat.le_of_lt k.isLt) _ (band5 k _ hmem).1

/-- After the third loop, chunk k of the output block holds the quotients trip k stored. -/
theorem C3_chunk (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t3_loop.trips) (x : (Rect.unit (s := S128x16384) (k0_off5 k) S128x2048.size (k0_off5_inb k)).shape.Idx) :
    arg4.view.read (Elt Ideal) (arg4.view.writes (Elt Ideal) (C2 c i arg1 harg1 arg2 harg2 arg3 harg3 arg4 harg4 arg5 harg5 arg6 harg6 x0 x1 x2) (PB3 c i arg1 harg1 arg2 harg2 arg3 harg3 arg4 harg4 arg5 harg5 arg6 harg6 x0 x1 x2 k0_t3_loop.trips)) ((Rect.unit (s := S128x16384) (k0_off5 k) S128x2048.size (k0_off5_inb k)).emb x)
      = k0_pay7 (F := Ideal) (eIn c i arg1 harg1 arg2 harg2 arg3 harg3 arg4 harg4 arg5 harg5 arg6 harg6 x0 x1 x2 k) (lFin c i arg1 harg1 arg2 harg2 arg3 harg3 arg4 harg4 arg5 harg5 arg6 harg6 x0 x1 x2) x :=
  Cert.Lib.ChunkStores.read_band arg4.view (C2 c i arg1 harg1 arg2 harg2 arg3 harg3 arg4 harg4 arg5 harg5 arg6 harg6 x0 x1 x2) (fun n => PB3 c i arg1 harg1 arg2 harg2 arg3 harg3 arg4 harg4 arg5 harg5 arg6 harg6 x0 x1 x2 n)
    (fun k : Fin k0_t3_loop.trips => (Rect.unit (s := S128x16384) (k0_off5 k) S128x2048.size (k0_off5_inb k))) (fun k => k0_pay7 (F := Ideal) (eIn c i arg1 harg1 arg2 harg2 arg3 harg3 arg4 harg4 arg5 harg5 arg6 harg6 x0 x1 x2 k) (lFin c i arg1 harg1 arg2 harg2 arg3 harg3 arg4 harg4 arg5 harg5 arg6 harg6 x0 x1 x2))
    (fun k => PB3_succ c i arg1 harg1 arg2 harg2 arg3 harg3 arg4 harg4 arg5 harg5 arg6 harg6 x0 x1 x2 k) 1 2048 band5 k x k0_t3_loop.trips k.isLt le_rfl

end Cert.KernelIdeal.Body

end
-- ==== Proof.BodyValue.lean ====
/-
  The kernel body's output block, entry by entry.

  With the block's contents after each loop known chunk by chunk, an entry (p, j) lies in chunk j / 2048 at
  column j mod 2048; what the loads of that chunk read are rows 2048·k … of the weights and of their squared norms.
  So the block holds, after the first loop, the score s(p, j); the running maximum ends at sup_j s(p, j); after the
  second loop the block holds exp(s(p, j) − sup); the running sum ends at the sum of those; and after the third loop
  the block holds their quotient: the softmax of row p of the scores, at j.
-/
import proofs.«124929_j41137196761280_2_alg».proof.Proof.BodyStores

set_option maxRecDepth 16384

noncomputable section

namespace Cert.KernelIdeal.Body

open Cert.KernelIdeal Cert.KernelIdeal.Gen Idealize.ShloMosaic Idealize.ShloMosaic.ValueIdx
open Idealize.ShloMosaic.TcCoe Idealize.SL.Sem
open scoped BigOperators

/-! ## What the loads read -/

theorem V0_eq (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) : V0 c i arg1 harg1 arg2 harg2 arg3 harg3 arg4 harg4 arg5 harg5 arg6 harg6 x0 x1 x2 = x0 := by
  funext y
  show arg1.view.read (Elt Ideal) (harg1.unread x0)
    ((Rect.unit (s := S128x256) ![0, 0] S128x256.size inb_S128x256_S128x256_0_0).emb y) = x0 y
  rw [harg1.read_unread]
  exact congrArg x0 (emb_unit _ rfl y y fun a => by
    match a with
    | ⟨0, _⟩ => exact (Nat.zero_add _).symm
    | ⟨1, _⟩ => exact (Nat.zero_add _).symm)

theorem ldW_at (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t1_loop.trips) (q : Fin 2048) (j : Fin 16384) (hj : j.val = 2048 * k.val + q.val) (a : Fin 256) :
    ldW c i arg1 harg1 arg2 harg2 arg3 harg3 arg4 harg4 arg5 harg5 arg6 harg6 x0 x1 x2 k (ix2 q a) = x1 (ix2 j a) := by
  show arg2.view.read (Elt Ideal) (harg2.unread x1) ((Rect.unit (s := S16384x256) (k0_off1 k) S2048x256.size (k0_off1_inb k)).emb (ix2 q a)) = x1 (ix2 j a)
  rw [harg2.read_unread]
  exact congrArg x1 (emb_unit _ (k0_off1_eq k) (ix2 q a) (ix2 j a) fun ax => by
    match ax with
    | ⟨0, _⟩ => exact hj
    | ⟨1, _⟩ => exact (Nat.zero_add _).symm)

theorem ldw2_at (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t1_loop.trips) (q : Fin 2048) (j : Fin 16384) (hj : j.val = 2048 * k.val + q.val) :
    ldw2 c i arg1 harg1 arg2 harg2 arg3 harg3 arg4 harg4 arg5 harg5 arg6 harg6 x0 x1 x2 k (ix2 (0 : Fin 1) q) = x2 (ix2 (0 : Fin 1) j) := by
  show arg3.view.read (Elt Ideal) (harg3.unread x2) ((Rect.unit (s := S1x16384) (k0_off2 k) S1x2048.size (k0_off2_inb k)).emb (ix2 (0 : Fin 1) q)) = x2 (ix2 (0 : Fin 1) j)
  rw [harg3.read_unread]
  exact congrArg x2 (emb_unit _ (k0_off2_eq k) (ix2 (0 : Fin 1) q) (ix2 (0 : Fin 1) j) fun ax => by
    match ax with
    | ⟨0, _⟩ => exact (Nat.zero_add _).symm
    | ⟨1, _⟩ => exact hj)

/-! ## The scores -/

/-- The scores trip k of the first loop stores, at (p, q): the score of row p against weight row 2048·k + q. -/
theorem score_at (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t1_loop.trips) (p : Fin 128) (q : Fin 2048) (j : Fin 16384) (hj : j.val = 2048 * k.val + q.val) :
    k0_pay2 (F := Ideal) (V0 c i arg1 harg1 arg2 harg2 arg3 harg3 arg4 harg4 arg5 harg5 arg6 harg6 x0 x1 x2) (ldW c i arg1 harg1 arg2 harg2 arg3 harg3 arg4 harg4 arg5 harg5 arg6 harg6 x0 x1 x2 k) (ldw2 c i arg1 harg1 arg2 harg2 arg3 harg3 arg4 harg4 arg5 harg5 arg6 harg6 x0 x1 x2 k) (ix2 p q) = rowScore x0 x1 x2 p j := by
  rw [Cert.KernelIdeal.Payloads.pay2_at, V0_eq, ldw2_at c i arg1 harg1 arg2 harg2 arg3 harg3 arg4 harg4 arg5 harg5 arg6 harg6 x0 x1 x2 k q j hj]
  unfold rowScore
  congr 1
  exact Finset.sum_congr rfl fun a _ => by rw [ldW_at c i arg1 harg1 arg2 harg2 arg3 harg3 arg4 harg4 arg5 harg5 arg6 harg6 x0 x1 x2 k q j hj a]

/-- The position of column j of the block: chunk j / 2048, column j mod 2048. -/
theorem col_split (j : Fin 16384) : j.val / 2048 < 8 ∧ j.val % 2048 < 2048 ∧ j.val = 2048 * (j.val / 2048) + j.val % 2048 :=
  ⟨by have := j.isLt; omega, Nat.mod_lt _ (by norm_num), (Nat.div_add_mod j.val 2048).symm⟩

/-- After the first loop the block holds the scores. -/
theorem readC1 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (p : Fin 128) (j : Fin 16384) :
    arg4.view.read (Elt Ideal) (C1 c i arg1 harg1 arg2 harg2 arg3 harg3 arg4 harg4 arg5 harg5 arg6 harg6 x0 x1 x2) (ix2 p j) = rowScore x0 x1 x2 p j := by
  obtain ⟨h8, hq, hj⟩ := col_split j
  have hk : j.val / 2048 < k0_t1_loop.trips := by rw [trips1]; exact h8
  have he : (Rect.unit (s := S128x16384) (k0_off3 ⟨j.val / 2048, hk⟩) S128x2048.size (k0_off3_inb ⟨j.val / 2048, hk⟩)).emb (ix2 p ⟨j.val % 2048, hq⟩) = ix2 p j :=
    emb_unit _ (k0_off3_eq ⟨j.val / 2048, hk⟩) _ _ fun ax => by
      match ax with
      | ⟨0, _⟩ => exact (Nat.zero_add _).symm
      | ⟨1, _⟩ => exact hj
  rw [← he, C1_chunk]
  exact score_at c i arg1 harg1 arg2 harg2 arg3 harg3 arg4 harg4 arg5 harg5 arg6 harg6 x0 x1 x2 ⟨j.val / 2048, hk⟩ p ⟨j.val % 2048, hq⟩ j hj

/-- The running maximum ends at the supremum of the row's scores. -/
theorem mRow (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (p : Fin 128) :
    mFin c i arg1 harg1 arg2 harg2 arg3 harg3 arg4 harg4 arg5 harg5 arg6 harg6 x0 x1 x2 (ix2 p (0 : Fin 1)) = ⨆ j, rowScore x0 x1 x2 p j := by
  rw [mFin_eq]
  have e8 : mAt c i arg1 harg1 arg2 harg2 arg3 harg3 arg4 harg4 arg5 harg5 arg6 harg6 x0 x1 x2 k0_t1_loop.trips = mAt c i arg1 harg1 arg2 harg2 arg3 harg3 arg4 harg4 arg5 harg5 arg6 harg6 x0 x1 x2 8 := congrArg _ trips1
  rw [e8]
  refine Cert.Softmax.chunked_top (C := 2048) (rowScore x0 x1 x2 p)
    (fun k q => if h : k < k0_t1_loop.trips then k0_pay2 (F := Ideal) (V0 c i arg1 harg1 arg2 harg2 arg3 harg3 arg4 harg4 arg5 harg5 arg6 harg6 x0 x1 x2) (ldW c i arg1 harg1 arg2 harg2 arg3 harg3 arg4 harg4 arg5 harg5 arg6 harg6 x0 x1 x2 ⟨k, h⟩) (ldw2 c i arg1 harg1 arg2 harg2 arg3 harg3 arg4 harg4 arg5 harg5 arg6 harg6 x0 x1 x2 ⟨k, h⟩) (ix2 p q) else 0)
    (fun n => mAt c i arg1 harg1 arg2 harg2 arg3 harg3 arg4 harg4 arg5 harg5 arg6 harg6 x0 x1 x2 n (ix2 p (0 : Fin 1))) 8 rfl ?_ ?_ ?_
  · intro k hk q j hj
    have hk' : k < k0_t1_loop.trips := by rw [trips1]; exact hk
    rw [dif_pos hk']
    exact score_at c i arg1 harg1 arg2 harg2 arg3 harg3 arg4 harg4 arg5 harg5 arg6 harg6 x0 x1 x2 ⟨k, hk'⟩ p q j hj
  · show mAt c i arg1 harg1 arg2 harg2 arg3 harg3 arg4 harg4 arg5 harg5 arg6 harg6 x0 x1 x2 0 (ix2 p (0 : Fin 1)) = ⊥
    rw [mAt_zero]
    exact Cert.KernelIdeal.Payloads.pay1_at p
  · intro k hk
    have hk' : k < k0_t1_loop.trips := by rw [trips1]; exact hk
    show mAt c i arg1 harg1 arg2 harg2 arg3 harg3 arg4 harg4 arg5 harg5 arg6 harg6 x0 x1 x2 (k + 1) (ix2 p (0 : Fin 1)) = max (mAt c i arg1 harg1 arg2 harg2 arg3 harg3 arg4 harg4 arg5 harg5 arg6 harg6 x0 x1 x2 k (ix2 p (0 : Fin 1))) _
    rw [show mAt c i arg1 harg1 arg2 harg2 arg3 harg3 arg4 harg4 arg5 harg5 arg6 harg6 x0 x1 x2 (k + 1) = _ from mAt_succ c i arg1 harg1 arg2 harg2 arg3 harg3 arg4 harg4 arg5 harg5 arg6 harg6 x0 x1 x2 ⟨k, hk'⟩, Cert.KernelIdeal.Payloads.pay3_at]
    congr 1
    exact iSup_congr fun q => by rw [dif_pos hk']

/-! ## The exponentials -/

/-- The exponentials trip k of the second loop stores, at (p, q). -/
theorem exp_at (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (k : Fin k0_t2_loop.trips) (p : Fin 128) (q : Fin 2048) (j : Fin 16384) (hj : j.val = 2048 * k.val + q.val) :
    k0_pay5 (F := Ideal) (sIn c i arg1 harg1 arg2 harg2 arg3 harg3 arg4 harg4 arg5 harg5 arg6 harg6 x0 x1 x2 k) (mFin c i arg1 harg1 arg2 harg2 arg3 harg3 arg4 harg4 arg5 harg5 arg6 harg6 x0 x1 x2) (ix2 p q)
      = Ideal.exp (rowScore x0 x1 x2 p j - ⨆ o, rowScore x0 x1 x2 p o) := by
  have he : (Rect.unit (s := S128x16384) (k0_off4 k) S128x2048.size (k0_off4_inb k)).emb (ix2 p q) = ix2 p j :=
    emb_unit _ (k0_off4_eq k) _ _ fun ax => by
      match ax with
      | ⟨0, _⟩ => exact (Nat.zero_add _).symm
      | ⟨1, _⟩ => exact hj
  rw [Cert.KernelIdeal.Payloads.pay5_at, mRow, sIn_eq, he, readC1]

/-- After the second loop the block holds the exponentials. -/
theorem readC2 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (p : Fin 128) (j : Fin 16384) :
    arg4.view.read (Elt Ideal) (C2 c i arg1 harg1 arg2 harg2 arg3 harg3 arg4 harg4 arg5 harg5 arg6 harg6 x0 x1 x2) (ix2 p j) = Ideal.exp (rowScore x0 x1 x2 p j - ⨆ o, rowScore x0 x1 x2 p o) := by
  obtain ⟨h8, hq, hj⟩ := col_split j
  have hk : j.val / 2048 < k0_t2_loop.trips := by rw [trips2]; exact h8
  have he : (Rect.unit (s := S128x16384) (k0_off4 ⟨j.val / 2048, hk⟩) S128x2048.size (k0_off4_inb ⟨j.val / 2048, hk⟩)).emb (ix2 p ⟨j.val % 2048, hq⟩) = ix2 p j :=
    emb_unit _ (k0_off4_eq ⟨j.val / 2048, hk⟩) _ _ fun ax => by
      match ax with
      | ⟨0, _⟩ => exact (Nat.zero_add _).symm
      | ⟨1, _⟩ => exact hj
  rw [← he, C2_chunk]
  exact exp_at c i arg1 harg1 arg2 harg2 arg3 harg3 arg4 harg4 arg5 harg5 arg6 harg6 x0 x1 x2 ⟨j.val / 2048, hk⟩ p ⟨j.val % 2048, hq⟩ j hj

/-- The running sum ends at the sum of the row's exponentials. -/
theorem lRow (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (p : Fin 128) :
    lFin c i arg1 harg1 arg2 harg2 arg3 harg3 arg4 harg4 arg5 harg5 arg6 harg6 x0 x1 x2 (ix2 p (0 : Fin 1)) = ∑ j, Ideal.exp (rowScore x0 x1 x2 p j - ⨆ o, rowScore x0 x1 x2 p o) := by
  rw [lFin_eq]
  have e8 : lAt c i arg1 harg1 arg2 harg2 arg3 harg3 arg4 harg4 arg5 harg5 arg6 harg6 x0 x1 x2 k0_t2_loop.trips = lAt c i arg1 harg1 arg2 harg2 arg3 harg3 arg4 harg4 arg5 harg5 arg6 harg6 x0 x1 x2 8 := congrArg _ trips2
  rw [e8]
  refine Cert.Softmax.chunked_sum (C := 2048) (fun j => Ideal.exp (rowScore x0 x1 x2 p j - ⨆ o, rowScore x0 x1 x2 p o))
    (fun k q => if h : k < k0_t2_loop.trips then k0_pay5 (F := Ideal) (sIn c i arg1 harg1 arg2 harg2 arg3 harg3 arg4 harg4 arg5 harg5 arg6 harg6 x0 x1 x2 ⟨k, h⟩) (mFin c i arg1 harg1 arg2 harg2 arg3 harg3 arg4 harg4 arg5 harg5 arg6 harg6 x0 x1 x2) (ix2 p q) else 0)
    (fun n => lAt c i arg1 harg1 arg2 harg2 arg3 harg3 arg4 harg4 arg5 harg5 arg6 harg6 x0 x1 x2 n (ix2 p (0 : Fin 1))) 8 rfl ?_ ?_ ?_
  · intro k hk q j hj
    have hk' : k < k0_t2_loop.trips := by rw [trips2]; exact hk
    rw [dif_pos hk']
    exact exp_at c i arg1 harg1 arg2 harg2 arg3 harg3 arg4 harg4 arg5 harg5 arg6 harg6 x0 x1 x2 ⟨k, hk'⟩ p q j hj
  · show lAt c i arg1 harg1 arg2 harg2 arg3 harg3 arg4 harg4 arg5 harg5 arg6 harg6 x0 x1 x2 0 (ix2 p (0 : Fin 1)) = 0
    rw [lAt_zero]
    exact Cert.KernelIdeal.Payloads.pay4_at p
  · intro k hk
    have hk' : k < k0_t2_loop.trips := by rw [trips2]; exact hk
    show lAt c i arg1 harg1 arg2 harg2 arg3 harg3 arg4 harg4 arg5 harg5 arg6 harg6 x0 x1 x2 (k + 1) (ix2 p (0 : Fin 1)) = lAt c i arg1 harg1 arg2 harg2 arg3 harg3 arg4 harg4 arg5 harg5 arg6 harg6 x0 x1 x2 k (ix2 p (0 : Fin 1)) + _
    rw [show lAt c i arg1 harg1 arg2 harg2 arg3 harg3 arg4 harg4 arg5 harg5 arg6 harg6 x0 x1 x2 (k + 1) = _ from lAt_succ c i arg1 harg1 arg2 harg2 arg3 harg3 arg4 harg4 arg5 harg5 arg6 harg6 x0 x1 x2 ⟨k, hk'⟩, Cert.KernelIdeal.Payloads.pay6_at]
    congr 1
    exact Finset.sum_congr rfl fun q _ => by rw [dif_pos hk']

/-! ## The quotients -/

/-- After the third loop the block holds the softmax of each row of scores. -/
theorem readC3 (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (p : Fin 128) (j : Fin 16384) :
    arg4.view.read (Elt Ideal) (arg4.view.writes (Elt Ideal) (C2 c i arg1 harg1 arg2 harg2 arg3 harg3 arg4 harg4 arg5 harg5 arg6 harg6 x0 x1 x2) (PB3 c i arg1 harg1 arg2 harg2 arg3 harg3 arg4 harg4 arg5 harg5 arg6 harg6 x0 x1 x2 k0_t3_loop.trips)) (ix2 p j)
      = Cert.Softmax.softmaxAt (rowScore x0 x1 x2 p) j := by
  obtain ⟨h8, hq, hj⟩ := col_split j
  have hk : j.val / 2048 < k0_t3_loop.trips := by rw [trips3]; exact h8
  have he : (Rect.unit (s := S128x16384) (k0_off5 ⟨j.val / 2048, hk⟩) S128x2048.size (k0_off5_inb ⟨j.val / 2048, hk⟩)).emb (ix2 p ⟨j.val % 2048, hq⟩) = ix2 p j :=
    emb_unit _ (k0_off5_eq ⟨j.val / 2048, hk⟩) _ _ fun ax => by
      match ax with
      | ⟨0, _⟩ => exact (Nat.zero_add _).symm
      | ⟨1, _⟩ => exact hj
  rw [← he, C3_chunk, Cert.KernelIdeal.Payloads.pay7_at, lRow, eIn_eq, he, readC2]
  rfl

/-- THE BLOCK: what the body leaves in the output block, at (p, j), is the softmax of row p's scores at j. -/
theorem out_at (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (p : Fin 128) (j : Fin 16384) :
    GenP.out0_A_3 (F := Ideal) c i arg1 harg1 arg2 harg2 arg3 harg3 arg4 harg4 arg5 harg5 arg6 harg6 x0 x1 x2 (ix2 p j) = Cert.Softmax.softmaxAt (rowScore x0 x1 x2 p) j := by
  unfold GenP.out0_A_3
  rw [View.read_writes_of_cover VO0_3 VO0_3.junk arg4.view arg4.view.junk _ (GenP.cover0_A_3 c i arg1 harg1 arg2 harg2 arg3 harg3 arg4 harg4 arg5 harg5 arg6 harg6 x0 x1 x2),
    run_pieces, View.writes_append]
  exact readC3 c i arg1 harg1 arg2 harg2 arg3 harg3 arg4 harg4 arg5 harg5 arg6 harg6 x0 x1 x2 p j

end Cert.KernelIdeal.Body

end
-- ==== Proof.KernelValue.lean ====
/-
  The kernel's result array, as one function of its arguments.

  The kernel runs 64 grid points; point t takes rows 128·t … 128·t + 127 of x, all of the (narrowed) weights and of
  their squared norms, and writes back rows 128·t … of the result. What each point writes back is the softmax of each of
  its rows of scores (the body's value); a row's scores depend on that row of x and on the weights only, so every
  point's block is the restriction of ONE function of the whole arrays, and the 64 blocks cover the result.
-/
import proofs.«124929_j41137196761280_2_alg».proof.Proof.BodyValue
import Idealize.ShloMosaic.Lib.Pipeline.Value
import Idealize.ShloMosaic.Lib.StableHlo.Run

set_option maxRecDepth 16384

noncomputable section

namespace Cert.KernelIdeal.KValue

open Cert.KernelIdeal Cert.KernelIdeal.Gen Idealize.ShloMosaic Idealize.ShloMosaic.ValueIdx
open Idealize.ShloMosaic.TcCoe Idealize.SL.Sem Idealize.ShloMosaic.StableHlo
open Idealize.ShloMosaic.Pipeline (Dat)
open scoped BigOperators

/-- The softmax of the scores of every row of X against the rows of W, with the rows' squared norms given as W2. -/
def G (X : S8192x256.Idx → EReal) (W : S16384x256.Idx → EReal) (W2 : S1x16384.Idx → EReal) : S8192x16384.Idx → EReal :=
  fun i => Cert.Softmax.softmaxAt
    (fun o : Fin 16384 => Cert.Softmax.score
      (∑ a : Fin 256, X (ix2 (n0 := 8192) ⟨(i 0).val, (i 0).isLt⟩ a) * X (ix2 (n0 := 8192) ⟨(i 0).val, (i 0).isLt⟩ a))
      (W2 (ix2 (0 : Fin 1) o))
      (∑ a : Fin 256, X (ix2 (n0 := 8192) ⟨(i 0).val, (i 0).isLt⟩ a) * W (ix2 o a)))
    ⟨(i 1).val, (i 1).isLt⟩

/-- A block of 128 rows: if x0 is rows 128·tv … of X and x1, x2 are W, W2, then the softmax of row y₀ of the block's
    scores at y₁ is G at (128·tv + y₀, y₁). -/
theorem block_G (X : S8192x256.Idx → EReal) (W : S16384x256.Idx → EReal) (W2 : S1x16384.Idx → EReal)
    (x0 : Vec Ideal S128x256 .f32) (x1 : Vec Ideal S16384x256 .bf16) (x2 : Vec Ideal S1x16384 .f32) (tv : ℕ)
    (h0 : ∀ (p : Fin 128) (a : Fin 256) (b : Fin 8192), b.val = 128 * tv + p.val → x0 (ix2 p a) = X (ix2 b a))
    (h1 : ∀ (o : Fin 16384) (a : Fin 256), x1 (ix2 o a) = W (ix2 o a))
    (h2 : ∀ o : Fin 16384, x2 (ix2 (0 : Fin 1) o) = W2 (ix2 (0 : Fin 1) o))
    (p : Fin 128) (j : Fin 16384) (i : S8192x16384.Idx) (hi0 : (i 0).val = 128 * tv + p.val) (hi1 : (i 1).val = j.val) :
    Cert.Softmax.softmaxAt (Cert.KernelIdeal.Body.rowScore x0 x1 x2 p) j = G X W W2 i := by
  have hj : j = ⟨(i 1).val, (i 1).isLt⟩ := Fin.ext hi1.symm
  have hf : Cert.KernelIdeal.Body.rowScore x0 x1 x2 p
      = fun o : Fin 16384 => Cert.Softmax.score
          (∑ a : Fin 256, X (ix2 (n0 := 8192) ⟨(i 0).val, (i 0).isLt⟩ a) * X (ix2 (n0 := 8192) ⟨(i 0).val, (i 0).isLt⟩ a))
          (W2 (ix2 (0 : Fin 1) o))
          (∑ a : Fin 256, X (ix2 (n0 := 8192) ⟨(i 0).val, (i 0).isLt⟩ a) * W (ix2 o a)) := by
    funext o
    unfold Cert.KernelIdeal.Body.rowScore
    rw [h2 o]
    congr 1
    · exact Finset.sum_congr rfl fun a _ => by rw [h0 p a ⟨(i 0).val, (i 0).isLt⟩ hi0]
    · exact Finset.sum_congr rfl fun a _ => by rw [h0 p a ⟨(i 0).val, (i 0).isLt⟩ hi0, h1 o a]
  unfold G
  rw [hf, hj]

/-- The body's output block at any entry. -/
theorem out_entry (c : Dev nD) (i : grid0.Coords) (arg1 : Memref sig .tc .vmem S128x256 .f32) (harg1 : arg1.IsWhole) (arg2 : Memref sig .tc .vmem S16384x256 .bf16) (harg2 : arg2.IsWhole) (arg3 : Memref sig .tc .vmem S1x16384 .f32) (harg3 : arg3.IsWhole) (arg4 : Memref sig .tc .vmem S128x16384 .f32) (harg4 : arg4.IsWhole) (arg5 : Memref sig .tc .vmem S128x1 .f32) (harg5 : arg5.IsWhole) (arg6 : Memref sig .tc .vmem S128x1 .f32) (harg6 : arg6.IsWhole) (x0 : Vec Ideal S128x256 .f32) (x1 : Vec Ideal S16384x256 .bf16) (x2 : Vec Ideal S1x16384 .f32) (y : S128x16384.Idx) :
    GenP.out0_A_3 (F := Ideal) c i arg1 harg1 arg2 harg2 arg3 harg3 arg4 harg4 arg5 harg5 arg6 harg6 x0 x1 x2 y
      = Cert.Softmax.softmaxAt (Cert.KernelIdeal.Body.rowScore x0 x1 x2 (y 0)) (y 1) :=
  (congrArg (GenP.out0_A_3 (F := Ideal) c i arg1 harg1 arg2 harg2 arg3 harg3 arg4 harg4 arg5 harg5 arg6 harg6 x0 x1 x2) (eq_ix2 y)).trans (Cert.KernelIdeal.Body.out_at c i arg1 harg1 arg2 harg2 arg3 harg3 arg4 harg4 arg5 harg5 arg6 harg6 x0 x1 x2 (y 0) (y 1))

variable (m : (ℓ : Loc nD τ sig) → Buf (Elt Ideal) ℓ) (ρ : Dev nD → PrngReg)

/-! ## The blocks the body finds -/

/-- The printed index maps, decided over the grid: the x block and the result block move with the point, the
    weights and their squared norms stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem iblk0_at (c : Dev nD) (t : Fin cfg0.N) (p : Fin 128) (a : Fin 256) (b : Fin 8192) (hb : b.val = 128 * t.val + p.val) :
    iblk m c 0 t (ix2 p a) = V m c main_arg0 (ix2 b a) := by
  show V m c main_arg0 (((cfg0.win 0).blk t).view.emb (ix2 p a)) = V m c main_arg0 (ix2 b a)
  obtain ⟨e0, e1, -⟩ := idx_facts t
  refine congrArg _ (funext fun ax => Fin.ext ?_)
  match ax with
  | ⟨0, _⟩ => show win0_0.index t (0 : Fin 2) * 128 + 1 * p.val = b.val; omega
  | ⟨1, _⟩ => show win0_0.index t (1 : Fin 2) * 256 + 1 * a.val = a.val; omega

theorem iblk1_at (c : Dev nD) (t : Fin cfg0.N) (o : Fin 16384) (a : Fin 256) :
    iblk m c 1 t (ix2 o a) = V m c main_v3 (ix2 o a) := by
  show V m c main_v3 (((cfg0.win 1).blk t).view.emb (ix2 o a)) = V m c main_v3 (ix2 o a)
  obtain ⟨-, -, e0, e1, -⟩ := idx_facts t
  refine congrArg _ (funext fun ax => Fin.ext ?_)
  match ax with
  | ⟨0, _⟩ => show win0_1.index t (0 : Fin 2) * 16384 + 1 * o.val = o.val; omega
  | ⟨1, _⟩ => show win0_1.index t (1 : Fin 2) * 256 + 1 * a.val = a.val; omega

theorem iblk2_at (c : Dev nD) (t : Fin cfg0.N) (o : Fin 16384) :
    iblk m c 2 t (ix2 (0 : Fin 1) o) = V m c main_v2 (ix2 (0 : Fin 1) o) := by
  show V m c main_v2 (((cfg0.win 2).blk t).view.emb (ix2 (0 : Fin 1) o)) = V m c main_v2 (ix2 (0 : Fin 1) o)
  obtain ⟨-, -, -, -, e0, e1, -⟩ := idx_facts t
  refine congrArg _ (funext fun ax => Fin.ext ?_)
  match ax with
  | ⟨0, _⟩ => show win0_2.index t (0 : Fin 2) * 1 + 1 * 0 = 0; omega
  | ⟨1, _⟩ => show win0_2.index t (1 : Fin 2) * 16384 + 1 * o.val = o.val; omega

/-! ## What each point writes back -/

/-- WHAT POINT t WRITES BACK is block t of G of the arrays as the region finds them. -/
theorem flushed_eq (c : Dev nD) (t : Fin cfg0.N) :
    (GenP.dats m 0 c).flushed 3 t
      = ((cfg0.win 3).blk t).view.read (Elt Ideal) (G (V m c main_arg0) (V m c main_v3) (V m c main_v2)) := by
  show (cfg0.win 3).cut (grid0.coords t) ((GenP.dats m 0 c).after 3 t) = _
  rw [GenP.after0_3]
  generalize hg : G (V m c main_arg0) (V m c main_v3) (V m c main_v2) = g
  funext y
  show _ = g (((cfg0.win 3).blk t).view.emb y)
  show GenP.outsAt0 m c t ((cfg0.win 3).xinj (grid0.coords t) y) = _
  rw [← hg]
  unfold GenP.outsAt0
  obtain ⟨-, -, -, -, -, -, e0, e1⟩ := idx_facts t
  refine (out_entry c (grid0.coords t) (ms0_0 t) (hs0_0 t) (ms0_1 t) (hs0_1 t) (ms0_2 t) (hs0_2 t) (ms0_3 t) (hs0_3 t)
      scM0_0 (Memref.isWhole_whole _) scM0_1 (Memref.isWhole_whole _) (iblk m c 0 t) (iblk m c 1 t) (iblk m c 2 t)
      ((cfg0.win 3).xinj (grid0.coords t) y)).trans ?_
  exact block_G (V m c main_arg0) (V m c main_v3) (V m c main_v2) (iblk m c 0 t) (iblk m c 1 t) (iblk m c 2 t) t.val
    (fun p a b hb => iblk0_at m c t p a b hb) (fun o a => iblk1_at m c t o a) (fun o => iblk2_at m c t o)
    _ _ _
    (by show win0_3.index t (0 : Fin 2) * 128 + 1 * (y 0).val = 128 * t.val + (y 0).val; omega)
    (by show win0_3.index t (1 : Fin 2) * 16384 + 1 * (y 1).val = (y 1).val; omega)

/-! ## The blocks cover the result -/

theorem mem_blk (t : Fin cfg0.N) (i : S8192x16384.Idx) :
    i ∈ ((cfg0.win 3).blk t).view.set ↔ ∀ a : Fin 2, win0_3.index t a * S128x16384.size a ≤ (i a).val ∧ (i a).val < win0_3.index t a * S128x16384.size a + S128x16384.size a := by
  show i ∈ ((View.whole main_v4).slice (win0_3.rect t)).set ↔ _
  rw [View.set_slice_whole, Rect.mem_set_unit]
  exact Iff.rfl

theorem cover (i : S8192x16384.Idx) : ∃ t : Fin cfg0.N, (cfg0.win 3).flush t = true ∧ i ∈ ((cfg0.win 3).blk t).view.set := by
  have hi0 : (i 0).val < 8192 := (i 0).isLt
  have hi1 : (i 1).val < 16384 := (i 1).isLt
  have hN : cfg0.N = 64 := N_0
  have ht : (i 0).val / 128 < cfg0.N := by rw [hN]; omega
  refine ⟨⟨(i 0).val / 128, ht⟩, flush0_3 _, ?_⟩
  obtain ⟨-, -, -, -, -, -, e0, e1⟩ := idx_facts ⟨(i 0).val / 128, ht⟩
  rw [mem_blk]
  intro a
  match a with
  | ⟨0, _⟩ =>
    show win0_3.index ⟨(i 0).val / 128, ht⟩ (0 : Fin 2) * 128 ≤ (i 0).val ∧ (i 0).val < win0_3.index ⟨(i 0).val / 128, ht⟩ (0 : Fin 2) * 128 + 128
    rw [e0]
    show (i 0).val / 128 * 128 ≤ (i 0).val ∧ (i 0).val < (i 0).val / 128 * 128 + 128
    omega
  | ⟨1, _⟩ =>
    show win0_3.index ⟨(i 0).val / 128, ht⟩ (1 : Fin 2) * 16384 ≤ (i 1).val ∧ (i 1).val < win0_3.index ⟨(i 0).val / 128, ht⟩ (1 : Fin 2) * 16384 + 16384
    rw [e1]
    omega

/-! ## The arrays the region finds -/

/-- The narrowed weights and the row of squared norms, as @main computes them from the weights before the region. -/
def hostW (a1 : (⟨S16384x256, .f32⟩ : BufTy).Contents (Elt Ideal)) : (⟨S16384x256, .bf16⟩ : BufTy).Contents (Elt Ideal) :=
  (truncf (F := Ideal) .bf16 (a1 : FVec Ideal S16384x256 .f32) bitsLt_bf16_f32 : FVec Ideal S16384x256 .bf16)
def hostW2 (a1 : (⟨S16384x256, .f32⟩ : BufTy).Contents (Elt Ideal)) : (⟨S1x16384, .f32⟩ : BufTy).Contents (Elt Ideal) :=
  broadcastInDim S1x16384 ![1] bcast_S16384_S1x16384_1
    (Host.reduceAdd (F := Ideal) (mulf (a1 : FVec Ideal S16384x256 .f32) a1 : FVec Ideal S16384x256 .f32) (constant (F := Ideal) S_ .f32 0x00000000#32) reducesTo_S16384x256_S16384_d1 h_S_)

theorem V_v3 (c : Dev nD) : (V m c main_v3 : S16384x256.Idx → EReal) = hostW (m ((c : Thread nD τ).loc main_arg1)) := by
  dsimp only [Gen.V, Gen.hostOps0]
  after_results
  rfl

theorem V_v2 (c : Dev nD) : (V m c main_v2 : S1x16384.Idx → EReal) = hostW2 (m ((c : Thread nD τ).loc main_arg1)) := by
  dsimp only [Gen.V, Gen.hostOps0]
  after_results
  rfl

/-! ## The result array, and the run -/

/-- THE ARRAY after the run: G of x, the narrowed weights and their squared norms. -/
theorem final (c : Dev nD) :
    (GenP.dats m 0 c).arrAt 3 cfg0.N
      = G (m ((c : Thread nD τ).loc main_arg0)) (hostW (m ((c : Thread nD τ).loc main_arg1))) (hostW2 (m ((c : Thread nD τ).loc main_arg1))) := by
  rw [(GenP.dats m 0 c).arrAt_eq_of_cover 3 (G (V m c main_arg0) (V m c main_v3) (V m c main_v2)) (fun t _ => flushed_eq m c t) cover,
    V_main_arg0, V_v3, V_v2]

/-- The frame run re-posted: the result array at G of the arguments, the arguments unchanged. -/
theorem run : θ_run defs (onTc (τ := τ) (main (F := Ideal))) ⟨m, fun _ => 0, ρ⟩ fun r => ∀ c : Dev nD,
      r.2.mem ((c : Thread nD τ).loc main_v4)
        = G (m ((c : Thread nD τ).loc main_arg0)) (hostW (m ((c : Thread nD τ).loc main_arg1))) (hostW2 (m ((c : Thread nD τ).loc main_arg1)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(((h c).1 3).trans (final m c)),
      ((h c).1 0).trans (((GenP.dats m 0 c).arrAt_in 0 rfl _).trans ((GenP.A_eq m c 0).trans (V_main_arg0 m c))),
      ((h c).2 main_arg1 (Pipeline.mem_restRefs_of main_arg1 (by decide) (by decide))).trans (V_main_arg1 m c)⟩)
    (GenP.run_main m ρ)

end Cert.KernelIdeal.KValue

end
-- ==== Proof.Bridge.lean ====
/-
  The reference computes the same function.

  The reference takes, for every row b of x, the scores against all rows of the weights in one pass, their maximum
  (joined with −∞), the exponentials of score minus maximum, their sum (added to 0), and the quotient. Read at an entry
  (b, o) this is the softmax of row b's scores at o, the scores being the kernel's up to a "0 +" in front of the
  squared norm of x_b (the host's sum starts from the constant 0). The squared norms of the weights are the same host
  term in both programs.
-/
import proofs.«124929_j41137196761280_2_alg».proof.Proof.KernelValue
import proofs.«124929_j41137196761280_2_alg».proof.Proof.Gen.ReferenceIdeal.Read
import proofs.«124929_j41137196761280_2_alg».proof.Proof.LibMaxReduce

set_option maxRecDepth 16384

noncomputable section

namespace Cert.Bridge

open Cert.ReferenceIdeal Cert.ReferenceIdeal.Gen Cert.ReferenceIdeal.Read Idealize.ShloMosaic Idealize.ShloMosaic.ValueIdx
open scoped BigOperators

variable (x0 : (⟨S8192x256, .f32⟩ : BufTy).Contents (Elt Ideal)) (x1 : (⟨S16384x256, .f32⟩ : BufTy).Contents (Elt Ideal))

/-- The reference's score of row b of x against row o of the weights. -/
def sR (b : Fin 8192) (o : Fin 16384) : EReal :=
  Cert.Softmax.score (Ideal.ofBits .f32 0x00000000#32 + ∑ a : Fin 256, x0 (ix2 b a) * x0 (ix2 b a))
    (val_main_v5 (F := Ideal) x1 (ix2 (0 : Fin 1) o)) (∑ a : Fin 256, x0 (ix2 b a) * x1 (ix2 o a))

theorem v18_at (b : Fin 8192) (o : Fin 16384) : val_main_v18 (F := Ideal) x0 x1 (ix2 b o) = sR x0 x1 b o := by
  have e1 : ∀ k : Fin 256, idx_main_v1 (idx_main_v2 (idx_main_v8 (ix2 b o))) k = ix2 b k := fun k =>
    funext fun a => Fin.ext (by match a with | ⟨0, _⟩ => rfl | ⟨1, _⟩ => rfl)
  have e2 : idx_main_v9 (ix2 b o) = ix2 (0 : Fin 1) o :=
    funext fun a => Fin.ext (by match a with | ⟨0, _⟩ => rfl | ⟨1, _⟩ => rfl)
  have e3 : ∀ k : Fin 256, lidx_main_v7 (ix2 b o) k = ix2 b k := fun k =>
    funext fun a => Fin.ext (by match a with | ⟨0, _⟩ => rfl | ⟨1, _⟩ => rfl)
  have e4 : ∀ k : Fin 256, idx_main_v6 (ridx_main_v7 (ix2 b o) k) = ix2 o k := fun k =>
    funext fun a => Fin.ext (by match a with | ⟨0, _⟩ => rfl | ⟨1, _⟩ => rfl)
  rw [val_main_v18_apply, val_main_v17_apply, val_main_cst_3_apply, val_main_v16_apply, val_main_v15_apply,
    val_main_v14_apply, val_main_cst_2_apply, val_main_v13_apply, val_main_v12_apply, val_main_v11_apply,
    val_main_cst_1_apply, val_main_v7_apply, val_main_v10_apply, val_main_v9_apply, val_main_v8_apply,
    val_main_v2_apply, val_main_v1_apply, val_main_cst_apply]
  simp only [val_main_v6_apply, val_main_v0_apply, e1, e2, e3, e4]
  rfl

theorem v19_at (b : Fin 8192) : val_main_v19 (F := Ideal) x0 x1 (ix1 b) = ⨆ k : Fin 16384, sR x0 x1 b k := by
  unfold val_main_v19 val_main_cst_4
  rw [Cert.Lib.MaxReduce.hostMaxReduce_single _ reducesTo_S8192x16384_S8192_d1 (by decide) h_S_ (ix1 b)]
  refine iSup_congr fun k => ?_
  refine Eq.trans (congrArg _ (funext fun a => Fin.ext (by match a with | ⟨0, _⟩ => rfl | ⟨1, _⟩ => rfl))) (v18_at x0 x1 b k)

theorem v25_at (b : Fin 8192) (o : Fin 16384) :
    val_main_v25 (F := Ideal) x0 x1 (ix2 b o) = Ideal.exp (sR x0 x1 b o - ⨆ k : Fin 16384, sR x0 x1 b k) := by
  have e1 : idx_main_v22 (idx_main_v23 (ix2 b o)) = ix1 b :=
    funext fun a => Fin.ext (by match a with | ⟨0, _⟩ => rfl)
  rw [val_main_v25_apply, val_main_v24_apply, val_main_v23_apply, val_main_v22_apply, val_main_v21_apply,
    val_main_v20_apply, val_main_cst_5_apply, e1, v19_at, v18_at]
  show Ideal.exp (sR x0 x1 b o - max (Ideal.ofBits .f32 0xFF800000#32) (⨆ k : Fin 16384, sR x0 x1 b k)) = _
  rw [Cert.Lib.MaxReduce.ofBits_neg_inf_f32, max_eq_right bot_le]

theorem v29_at (b : Fin 8192) (o : Fin 16384) :
    val_main_v29 (F := Ideal) x0 x1 (ix2 b o) = Cert.Softmax.softmaxAt (sR x0 x1 b) o := by
  have e1 : ∀ k : Fin 16384, idx_main_v26 (idx_main_v27 (idx_main_v28 (ix2 b o))) k = ix2 b k := fun k =>
    funext fun a => Fin.ext (by match a with | ⟨0, _⟩ => rfl | ⟨1, _⟩ => rfl)
  rw [val_main_v29_apply, val_main_v28_apply, val_main_v27_apply, val_main_v26_apply, val_main_cst_6_apply, v25_at]
  simp only [e1, v25_at]
  show Ideal.div _ (Ideal.ofBits .f32 0x00000000#32 + _) = _
  rw [Ideal.ofBits_zero_f32, zero_add]
  rfl

/-- THE REFERENCE IS THE KERNEL'S FUNCTION: the reference's result, entry by entry, is G of x, the narrowed weights and
    the weights' squared norms. -/
theorem ref_eq_G : val_main_v29 (F := Ideal) x0 x1
    = Cert.KernelIdeal.KValue.G x0 (Cert.KernelIdeal.KValue.hostW x1) (Cert.KernelIdeal.KValue.hostW2 x1) := by
  funext i
  have hi : i = ix2 (n0 := 8192) (n1 := 16384) ⟨(i 0).val, (i 0).isLt⟩ ⟨(i 1).val, (i 1).isLt⟩ :=
    funext fun a => Fin.ext (by match a with | ⟨0, _⟩ => rfl | ⟨1, _⟩ => rfl)
  rw [congrArg (val_main_v29 (F := Ideal) x0 x1) hi, v29_at]
  unfold Cert.KernelIdeal.KValue.G
  congr 1
  funext o
  unfold sR
  rw [Ideal.ofBits_zero_f32, zero_add]
  rfl

end Cert.Bridge

end
-- ==== Proof.lean ====
/-
  The kernel computes, for every row of x, the softmax over the 16384 weight rows of minus twice the Euclidean distance
  between the row of x and the weight row; its reference computes the same in plain array operations.

  On the extended reals both results are one function of the two arguments (Proof/KernelValue.lean: the kernel's result
  array, from what its body leaves in each block of 128 rows, Proof/BodyValue.lean; Proof/Bridge.lean: the reference's
  result read entry by entry). The only differences between the two programs are the grouping of the row maximum and
  of the row sum (eight chunks of 2048 against one pass), which suprema and sums of extended reals do not see, a
  "0 +" in front of a host sum, and a join with −∞; no finiteness of the inputs is used.
  The kernel's idealization rewrote nothing, so that claim is trivial. The three frame claims are the runs themselves:
  the kernel's two frames over the whole-body run with the first loop's stores restated (Proof/PatchedBits,
  Proof/PatchedIdeal), the reference's its run with the result dropped.
-/
import proofs.«124929_j41137196761280_2_alg».proof.Defs
import proofs.«124929_j41137196761280_2_alg».proof.Proof.Gen.Kernel
import proofs.«124929_j41137196761280_2_alg».proof.Proof.Gen.KernelIdeal
import proofs.«124929_j41137196761280_2_alg».proof.Proof.Gen.ReferenceIdeal
import proofs.«124929_j41137196761280_2_alg».proof.Proof.Gen.Pre_finite_inputs
import proofs.«124929_j41137196761280_2_alg».proof.Proof.Gen.ReferenceIdeal.Run
import proofs.«124929_j41137196761280_2_alg».proof.Proof.Gen.ReferenceIdeal.Read
import proofs.«124929_j41137196761280_2_alg».proof.Proof.PatchedBits.Frame
import proofs.«124929_j41137196761280_2_alg».proof.Proof.PatchedIdeal.Frame
import proofs.«124929_j41137196761280_2_alg».proof.Proof.KernelValue
import proofs.«124929_j41137196761280_2_alg».proof.Proof.Bridge
import Idealize.ShloMosaic.Adequacy
import Idealize.ShloMosaic.Init

noncomputable section

namespace Cert.Proof

open Idealize.ShloMosaic Idealize.SL.Sem

theorem frame_p : Cert.frame_Kernel := fun m ρ _ => Cert.Kernel.GenP.frame m ρ

theorem frame_pi : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs, run from memories that agree on x and the weights, end with the softmax of the scores in their
    result arrays. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, (hagree c).1, (hagree c).2]
  exact Cert.Bridge.ref_eq_G _ _

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
